-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x8x1024 : Shape := ⟨4, ![2, 2048, 8, 1024]⟩
abbrev S2x2048x8 : Shape := ⟨3, ![2, 2048, 8]⟩
abbrev S1024x1024 : Shape := ⟨2, ![1024, 1024]⟩
abbrev S1024 : Shape := ⟨1, ![1024]⟩
abbrev S_ : Shape := ⟨0, ![]⟩

class Facts : Prop where
  bcast_S_S2x2048x8x1024 : S_.BroadcastsInDim S2x2048x8x1024 (![] : Fin 0 → Fin S2x2048x8x1024.rank)
  reducesTo_S2x2048x8x1024_S_d0_1_2_3 : S2x2048x8x1024.ReducesTo [0, 1, 2, 3] S_
  h_S_ : 0 < S_.numel
  bcast_S_S2x2048x8 : S_.BroadcastsInDim S2x2048x8 (![] : Fin 0 → Fin S2x2048x8.rank)
  reducesTo_S2x2048x8_S_d0_1_2 : S2x2048x8.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  reducesTo_S_S_d : S_.ReducesTo [] S_

variable [Facts]

def fn_part3 {F : FTy → Type} [FloatOps F] (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  main_v52

def fn_part2 {F : FTy → Type} [FloatOps F] (main_arg7 : FVec F S1024 .f32) (main_arg8 : FVec F S1024x1024 .f32) (main_arg9 : FVec F S1024 .f32) (main_arg10 : FVec F S_ .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S_ .f32 := Host.absf main_arg10
  let main_cst_18 : FVec F S_ .f32 := constant S_ .f32 0x7F800000#32
  let main_v50 : IVec S_ 1 := cmpf .olt main_v49 main_cst_18
  fn_part3 (F := F) main_v48 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S_ .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x8x1024 .f32) (main_arg1 : FVec F S2x2048x8 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S_ .f32) : IVec S_ 1 :=
  let main_v0 : FVec F S2x2048x8x1024 .f32 := Host.absf main_arg0
  let main_cst : FVec F S_ .f32 := constant S_ .f32 0x7F800000#32
  let main_v1 : FVec F S2x2048x8x1024 .f32 := broadcastInDim S2x2048x8x1024 ![] bcast_S_S2x2048x8x1024 main_cst
  let main_v2 : IVec S2x2048x8x1024 1 := cmpf .olt main_v0 main_v1
  let main_c : IVec S_ 1 := constantI S_ 1 1#1
  let main_v3 : IVec S_ 1 := (fun x v => Host.reduce IntOp.andi x v reducesTo_S2x2048x8x1024_S_d0_1_2_3 h_S_) main_v2 main_c
  let main_v4 : FVec F S2x2048x8 .f32 := Host.absf main_arg1
  let main_cst_0 : FVec F S_ .f32 := constant S_ .f32 0x7F800000#32
  let main_v5 : FVec F S2x2048x8 .f32 := broadcastInDim S2x2048x8 ![] bcast_S_S2x2048x8 main_cst_0
  let main_v6 : IVec S2x2048x8 1 := cmpf .olt main_v4 main_v5
  let main_c_1 : IVec S_ 1 := constantI S_ 1 1#1
  let main_v7 : IVec S_ 1 := (fun x v => Host.reduce IntOp.andi x v reducesTo_S2x2048x8_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S2x2048x8x1024 : Shape := ⟨4, ![2, 2048, 8, 1024]⟩
abbrev S2x2048x8 : Shape := ⟨3, ![2, 2048, 8]⟩
abbrev S1024x1024 : Shape := ⟨2, ![1024, 1024]⟩
abbrev S1024 : Shape := ⟨1, ![1024]⟩
abbrev S_ : Shape := ⟨0, ![]⟩
abbrev S1x64x8x1024 : Shape := ⟨4, ![1, 64, 8, 1024]⟩
abbrev S1x64x8 : Shape := ⟨3, ![1, 64, 8]⟩
abbrev S64x8x1024 : Shape := ⟨3, ![64, 8, 1024]⟩
abbrev S512x1024 : Shape := ⟨2, ![512, 1024]⟩
abbrev S1x1024 : Shape := ⟨2, ![1, 1024]⟩
abbrev S64x8x16x64 : Shape := ⟨4, ![64, 8, 16, 64]⟩
abbrev S64x8 : Shape := ⟨2, ![64, 8]⟩
abbrev S64x8x1x64 : Shape := ⟨4, ![64, 8, 1, 64]⟩
abbrev S64x8x64 : Shape := ⟨3, ![64, 8, 64]⟩
abbrev S64x8x8 : Shape := ⟨3, ![64, 8, 8]⟩
abbrev S64x1x8 : Shape := ⟨3, ![64, 1, 8]⟩
abbrev S64x8x1 : Shape := ⟨3, ![64, 8, 1]⟩

abbrev nBuf : Space → Nat
  | .hbm => 22
  | .vmem => 14
  | .smem => 0
  | _ => 0

abbrev bufTy : (tb : Table) → Fin (tcTables nBuf tb) → BufTy
  | .hbm, ⟨0, _⟩ => ⟨S2x2048x8x1024, .f32⟩
  | .hbm, ⟨1, _⟩ => ⟨S2x2048x8, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S2x2048x8, .f32⟩
  | .hbm, ⟨13, _⟩ => ⟨S2x2048x8, .f32⟩
  | .hbm, ⟨14, _⟩ => ⟨S2x2048x8, .f32⟩
  | .hbm, ⟨15, _⟩ => ⟨S2x2048x8, .f32⟩
  | .hbm, ⟨16, _⟩ => ⟨S2x2048x8, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S2x2048x8x1024, .f32⟩
  | .local _ .vmem, ⟨0, _⟩ => ⟨S1x64x8x1024, .f32⟩
  | .local _ .vmem, ⟨1, _⟩ => ⟨S1x64x8x1024, .f32⟩
  | .local _ .vmem, ⟨2, _⟩ => ⟨S1x64x8, .f32⟩
  | .local _ .vmem, ⟨3, _⟩ => ⟨S1x64x8, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024, .f32⟩
  | .local _ .vmem, ⟨12, _⟩ => ⟨S1x64x8x1024, .f32⟩
  | .local _ .vmem, ⟨13, _⟩ => ⟨S1x64x8x1024, .f32⟩
  | _, _ => ⟨S2x2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bcast_S_S2x2048x8 : S_.BroadcastsInDim S2x2048x8 (![] : Fin 0 → Fin S2x2048x8.rank)
  bitsLt_bf16_f32 : FTy.bits .bf16 < FTy.bits .f32
  inb_S1x64x8x1024_S1x64x8x1024_0_0_0_0 : ∀ a, (![0, 0, 0, 0] : Fin 4 → Nat) a + S1x64x8x1024.size a ≤ S1x64x8x1024.size a
  h_S1x64x8x1024 : 0 < S1x64x8x1024.numel
  shapeCasts_S1x64x8x1024_S64x8x1024 : S1x64x8x1024.ShapeCasts S64x8x1024
  shapeCasts_S64x8x1024_S512x1024 : S64x8x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S64x8x16x64 : S512x1024.ShapeCasts S64x8x16x64
  inb_S1x64x8_S1x64x8_0_0_0 : ∀ a, (![0, 0, 0] : Fin 3 → Nat) a + S1x64x8.size a ≤ S1x64x8.size a
  h_S1x64x8 : 0 < S1x64x8.numel
  shapeCasts_S1x64x8_S64x8 : S1x64x8.ShapeCasts S64x8
  slices_S64x8x16x64_o0_0_0_0_S64x8x1x64 : S64x8x16x64.Slices ![0, 0, 0, 0] S64x8x1x64
  shapeCasts_S64x8x1x64_S64x8x64 : S64x8x1x64.ShapeCasts S64x8x64
  shapeCasts_S64x8_S64x1x8 : S64x8.ShapeCasts S64x1x8
  broadcasts_S64x1x8_S64x8x8 : S64x1x8.Broadcasts S64x8x8
  reduces_S64x8x8_S64x8 : S64x8x8.Reduces [2] S64x8
  shapeCasts_S64x8_S64x8x1 : S64x8.ShapeCasts S64x8x1
  broadcasts_S64x8x1_S64x8x8 : S64x8x1.Broadcasts S64x8x8
  slices_S64x8x16x64_o0_0_1_0_S64x8x1x64 : S64x8x16x64.Slices ![0, 0, 1, 0] S64x8x1x64
  slices_S64x8x16x64_o0_0_2_0_S64x8x1x64 : S64x8x16x64.Slices ![0, 0, 2, 0] S64x8x1x64
  slices_S64x8x16x64_o0_0_3_0_S64x8x1x64 : S64x8x16x64.Slices ![0, 0, 3, 0] S64x8x1x64
  slices_S64x8x16x64_o0_0_4_0_S64x8x1x64 : S64x8x16x64.Slices ![0, 0, 4, 0] S64x8x1x64
  slices_S64x8x16x64_o0_0_5_0_S64x8x1x64 : S64x8x16x64.Slices ![0, 0, 5, 0] S64x8x1x64
  slices_S64x8x16x64_o0_0_6_0_S64x8x1x64 : S64x8x16x64.Slices ![0, 0, 6, 0] S64x8x1x64
  slices_S64x8x16x64_o0_0_7_0_S64x8x1x64 : S64x8x16x64.Slices ![0, 0, 7, 0] S64x8x1x64
  slices_S64x8x16x64_o0_0_8_0_S64x8x1x64 : S64x8x16x64.Slices ![0, 0, 8, 0] S64x8x1x64
  slices_S64x8x16x64_o0_0_9_0_S64x8x1x64 : S64x8x16x64.Slices ![0, 0, 9, 0] S64x8x1x64
  slices_S64x8x16x64_o0_0_10_0_S64x8x1x64 : S64x8x16x64.Slices ![0, 0, 10, 0] S64x8x1x64
  slices_S64x8x16x64_o0_0_11_0_S64x8x1x64 : S64x8x16x64.Slices ![0, 0, 11, 0] S64x8x1x64
  slices_S64x8x16x64_o0_0_12_0_S64x8x1x64 : S64x8x16x64.Slices ![0, 0, 12, 0] S64x8x1x64
  slices_S64x8x16x64_o0_0_13_0_S64x8x1x64 : S64x8x16x64.Slices ![0, 0, 13, 0] S64x8x1x64
  slices_S64x8x16x64_o0_0_14_0_S64x8x1x64 : S64x8x16x64.Slices ![0, 0, 14, 0] S64x8x1x64
  slices_S64x8x16x64_o0_0_15_0_S64x8x1x64 : S64x8x16x64.Slices ![0, 0, 15, 0] S64x8x1x64
  shapeCasts_S64x8x64_S64x8x1x64 : S64x8x64.ShapeCasts S64x8x1x64
  concatenates_S64x8x1x64_S64x8x1x64_S64x8x1x64_S64x8x1x64_S64x8x1x64_S64x8x1x64_S64x8x1x64_S64x8x1x64_S64x8x1x64_S64x8x1x64_S64x8x1x64_S64x8x1x64_S64x8x1x64_S64x8x1x64_S64x8x1x64_S64x8x1x64_S64x8x16x64_d2 : Shape.Concatenates [S64x8x1x64, S64x8x1x64, S64x8x1x64, S64x8x1x64, S64x8x1x64, S64x8x1x64, S64x8x1x64, S64x8x1x64, S64x8x1x64, S64x8x1x64, S64x8x1x64, S64x8x1x64, S64x8x1x64, S64x8x1x64, S64x8x1x64, S64x8x1x64] S64x8x16x64 2
  shapeCasts_S64x8x16x64_S512x1024 : S64x8x16x64.ShapeCasts S512x1024
  shapeCasts_S512x1024_S64x8x1024 : S512x1024.ShapeCasts S64x8x1024
  shapeCasts_S64x8x1024_S1x64x8x1024 : S64x8x1024.ShapeCasts S1x64x8x1024
  dot_S512x1024_S1024x1024_S512x1024_1_0_0_1_n_n_wf : DotDims.WF S512x1024 S1024x1024 S512x1024 [1] [0] [0] [1] [] []
  dot_S64x8x64_S64x8x64_S64x8x8_2_2_1_1_0_0_wf : DotDims.WF S64x8x64 S64x8x64 S64x8x8 [2] [2] [1] [1] [0] [0]
  dot_S64x8x8_S64x8x64_S64x8x64_2_1_1_2_0_0_wf : DotDims.WF S64x8x8 S64x8x64 S64x8x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8x1024.size a ≤ S2x2048x8x1024.size a
  hwx0_0 : ∀ i : grid0.Coords, EltTy.bits .f32 = 32 ∨ (Rect.block (s := S2x2048x8x1024) S1x64x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x8.size a ≤ S2x2048x8.size a
  hwx0_1 : ∀ i : grid0.Coords, EltTy.bits .f32 = 32 ∨ (Rect.block (s := S2x2048x8) S1x64x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x8x1024.size a ≤ S2x2048x8x1024.size a
  hwx0_10 : ∀ i : grid0.Coords, EltTy.bits .f32 = 32 ∨ (Rect.block (s := S2x2048x8x1024) S1x64x8x1024.size (cc0_transform_10 i) (hinb0_10 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S64x8x64_S64x8x64_S64x8x8_2_2_1_1_0_0 : DotDims S64x8x64 S64x8x64 S64x8x8 where
  lhsContracting := [2]
  rhsContracting := [2]
  lhsNonContracting := [1]
  rhsNonContracting := [1]
  lhsBatch := [0]
  rhsBatch := [0]
  wf := dot_S64x8x64_S64x8x64_S64x8x8_2_2_1_1_0_0_wf
def dot_S64x8x8_S64x8x64_S64x8x64_2_1_1_2_0_0 : DotDims S64x8x8 S64x8x64 S64x8x64 where
  lhsContracting := [2]
  rhsContracting := [1]
  lhsNonContracting := [1]
  rhsNonContracting := [2]
  lhsBatch := [0]
  rhsBatch := [0]
  wf := dot_S64x8x8_S64x8x64_S64x8x64_2_1_1_2_0_0_wf

abbrev win0_0 : Pipeline.Window sig grid0 :=
  Pipeline.Window.ofSpec (Memref.whole main_arg0) S1x64x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x64x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x64x8x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x2048x8x1024 : Shape := ⟨4, ![2, 2048, 8, 1024]⟩
abbrev S2x2048x8 : Shape := ⟨3, ![2, 2048, 8]⟩
abbrev S1024x1024 : Shape := ⟨2, ![1024, 1024]⟩
abbrev S1024 : Shape := ⟨1, ![1024]⟩
abbrev S_ : Shape := ⟨0, ![]⟩
abbrev S1x1x1x1024 : Shape := ⟨4, ![1, 1, 1, 1024]⟩
abbrev S2x2048x8x16x64 : Shape := ⟨5, ![2, 2048, 8, 16, 64]⟩
abbrev S2x2048x16x8x64 : Shape := ⟨5, ![2, 2048, 16, 8, 64]⟩
abbrev S2x2048x16x8x8 : Shape := ⟨5, ![2, 2048, 16, 8, 8]⟩
abbrev S2x2048x1x1x8 : Shape := ⟨5, ![2, 2048, 1, 1, 8]⟩
abbrev S2x2048x16x8 : Shape := ⟨4, ![2, 2048, 16, 8]⟩
abbrev S2x2048x16x8x1 : Shape := ⟨5, ![2, 2048, 16, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x8x1024, .f32⟩
  | .hbm, ⟨1, _⟩ => ⟨S2x2048x8, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S2x2048x8x1024, .f32⟩
  | .hbm, ⟨12, _⟩ => ⟨S1x1x1x1024, .f32⟩
  | .hbm, ⟨13, _⟩ => ⟨S2x2048x8x1024, .f32⟩
  | .hbm, ⟨14, _⟩ => ⟨S2x2048x8x1024, .f32⟩
  | .hbm, ⟨15, _⟩ => ⟨S2x2048x8x1024, .f32⟩
  | .hbm, ⟨16, _⟩ => ⟨S1x1x1x1024, .f32⟩
  | .hbm, ⟨17, _⟩ => ⟨S2x2048x8x1024, .f32⟩
  | .hbm, ⟨18, _⟩ => ⟨S2x2048x8x1024, .f32⟩
  | .hbm, ⟨19, _⟩ => ⟨S2x2048x8x1024, .f32⟩
  | .hbm, ⟨20, _⟩ => ⟨S1x1x1x1024, .f32⟩
  | .hbm, ⟨21, _⟩ => ⟨S2x2048x8x1024, .f32⟩
  | .hbm, ⟨22, _⟩ => ⟨S2x2048x8x1024, .f32⟩
  | .hbm, ⟨23, _⟩ => ⟨S2x2048x8x16x64, .f32⟩
  | .hbm, ⟨24, _⟩ => ⟨S2x2048x16x8x64, .f32⟩
  | .hbm, ⟨25, _⟩ => ⟨S2x2048x8x16x64, .f32⟩
  | .hbm, ⟨26, _⟩ => ⟨S2x2048x16x8x64, .f32⟩
  | .hbm, ⟨27, _⟩ => ⟨S2x2048x8x16x64, .f32⟩
  | .hbm, ⟨28, _⟩ => ⟨S2x2048x16x8x64, .f32⟩
  | .hbm, ⟨29, _⟩ => ⟨S2x2048x16x8x8, .f32⟩
  | .hbm, ⟨30, _⟩ => ⟨S_, .f32⟩
  | .hbm, ⟨31, _⟩ => ⟨S2x2048x16x8x8, .f32⟩
  | .hbm, ⟨32, _⟩ => ⟨S2x2048x16x8x8, .f32⟩
  | .hbm, ⟨33, _⟩ => ⟨S_, .f32⟩
  | .hbm, ⟨34, _⟩ => ⟨S2x2048x8, .f32⟩
  | .hbm, ⟨35, _⟩ => ⟨S2x2048x8, .f32⟩
  | .hbm, ⟨36, _⟩ => ⟨S2x2048x8, .f32⟩
  | .hbm, ⟨37, _⟩ => ⟨S2x2048x1x1x8, .f32⟩
  | .hbm, ⟨38, _⟩ => ⟨S2x2048x1x1x8, .f32⟩
  | .hbm, ⟨39, _⟩ => ⟨S2x2048x1x1x8, .f32⟩
  | .hbm, ⟨40, _⟩ => ⟨S2x2048x16x8x8, .f32⟩
  | .hbm, ⟨41, _⟩ => ⟨S2x2048x16x8x8, .f32⟩
  | .hbm, ⟨42, _⟩ => ⟨S_, .f32⟩
  | .hbm, ⟨43, _⟩ => ⟨S2x2048x16x8, .f32⟩
  | .hbm, ⟨44, _⟩ => ⟨S_, .f32⟩
  | .hbm, ⟨45, _⟩ => ⟨S2x2048x16x8, .f32⟩
  | .hbm, ⟨46, _⟩ => ⟨S2x2048x16x8, .f32⟩
  | .hbm, ⟨47, _⟩ => ⟨S2x2048x16x8x1, .f32⟩
  | .hbm, ⟨48, _⟩ => ⟨S2x2048x16x8x8, .f32⟩
  | .hbm, ⟨49, _⟩ => ⟨S2x2048x16x8x8, .f32⟩
  | .hbm, ⟨50, _⟩ => ⟨S2x2048x16x8x8, .f32⟩
  | .hbm, ⟨51, _⟩ => ⟨S_, .f32⟩
  | .hbm, ⟨52, _⟩ => ⟨S2x2048x16x8, .f32⟩
  | .hbm, ⟨53, _⟩ => ⟨S2x2048x16x8x1, .f32⟩
  | .hbm, ⟨54, _⟩ => ⟨S2x2048x16x8x8, .f32⟩
  | .hbm, ⟨55, _⟩ => ⟨S2x2048x16x8x8, .f32⟩
  | .hbm, ⟨56, _⟩ => ⟨S2x2048x16x8x64, .f32⟩
  | .hbm, ⟨57, _⟩ => ⟨S2x2048x8x16x64, .f32⟩
  | .hbm, ⟨58, _⟩ => ⟨S2x2048x8x1024, .f32⟩
  | .hbm, ⟨59, _⟩ => ⟨S2x2048x8x1024, .f32⟩
  | .hbm, ⟨60, _⟩ => ⟨S1x1x1x1024, .f32⟩
  | .hbm, ⟨61, _⟩ => ⟨S2x2048x8x1024, .f32⟩
  | .hbm, ⟨62, _⟩ => ⟨S2x2048x8x1024, .f32⟩
  | _, _ => ⟨S2x2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  bcast_S1024_S1x1x1x1024_3 : S1024.BroadcastsInDim S1x1x1x1024 (![3] : Fin 1 → Fin S1x1x1x1024.rank)
  bcast_S1x1x1x1024_S2x2048x8x1024_0_1_2_3 : S1x1x1x1024.BroadcastsInDim S2x2048x8x1024 (![0, 1, 2, 3] : Fin 4 → Fin S2x2048x8x1024.rank)
  shapeCasts_S2x2048x8x1024_S2x2048x8x16x64 : S2x2048x8x1024.ShapeCasts S2x2048x8x16x64
  transposes_S2x2048x8x16x64_S2x2048x16x8x64_0_1_3_2_4 : S2x2048x8x16x64.Transposes [0, 1, 3, 2, 4] S2x2048x16x8x64
  bcast_S_S2x2048x16x8x8 : S_.BroadcastsInDim S2x2048x16x8x8 (![] : Fin 0 → Fin S2x2048x16x8x8.rank)
  bcast_S_S2x2048x8 : S_.BroadcastsInDim S2x2048x8 (![] : Fin 0 → Fin S2x2048x8.rank)
  bcast_S2x2048x8_S2x2048x1x1x8_0_1_4 : S2x2048x8.BroadcastsInDim S2x2048x1x1x8 (![0, 1, 4] : Fin 3 → Fin S2x2048x1x1x8.rank)
  bcast_S_S2x2048x1x1x8 : S_.BroadcastsInDim S2x2048x1x1x8 (![] : Fin 0 → Fin S2x2048x1x1x8.rank)
  bcast_S2x2048x1x1x8_S2x2048x16x8x8_0_1_2_3_4 : S2x2048x1x1x8.BroadcastsInDim S2x2048x16x8x8 (![0, 1, 2, 3, 4] : Fin 5 → Fin S2x2048x16x8x8.rank)
  reducesTo_S2x2048x16x8x8_S2x2048x16x8_d4 : S2x2048x16x8x8.ReducesTo [4] S2x2048x16x8
  h_S_ : 0 < S_.numel
  bcast_S_S2x2048x16x8 : S_.BroadcastsInDim S2x2048x16x8 (![] : Fin 0 → Fin S2x2048x16x8.rank)
  bcast_S2x2048x16x8_S2x2048x16x8x1_0_1_2_3 : S2x2048x16x8.BroadcastsInDim S2x2048x16x8x1 (![0, 1, 2, 3] : Fin 4 → Fin S2x2048x16x8x1.rank)
  bcast_S2x2048x16x8x1_S2x2048x16x8x8_0_1_2_3_4 : S2x2048x16x8x1.BroadcastsInDim S2x2048x16x8x8 (![0, 1, 2, 3, 4] : Fin 5 → Fin S2x2048x16x8x8.rank)
  transposes_S2x2048x16x8x64_S2x2048x8x16x64_0_1_3_2_4 : S2x2048x16x8x64.Transposes [0, 1, 3, 2, 4] S2x2048x8x16x64
  shapeCasts_S2x2048x8x16x64_S2x2048x8x1024 : S2x2048x8x16x64.ShapeCasts S2x2048x8x1024
  dot_S2x2048x8x1024_S1024x1024_S2x2048x8x1024_3_1_012_0_n_n_wf : DotDims.WF S2x2048x8x1024 S1024x1024 S2x2048x8x1024 [3] [1] [0, 1, 2] [0] [] []
  dot_S2x2048x16x8x64_S2x2048x16x8x64_S2x2048x16x8x8_4_4_3_3_012_012_wf : DotDims.WF S2x2048x16x8x64 S2x2048x16x8x64 S2x2048x16x8x8 [4] [4] [3] [3] [0, 1, 2] [0, 1, 2]
  dot_S2x2048x16x8x8_S2x2048x16x8x64_S2x2048x16x8x64_4_3_3_4_012_012_wf : DotDims.WF S2x2048x16x8x8 S2x2048x16x8x64 S2x2048x16x8x64 [4] [3] [3] [4] [0, 1, 2] [0, 1, 2]

variable [Facts₀]

def dot_S2x2048x8x1024_S1024x1024_S2x2048x8x1024_3_1_012_0_n_n : DotDims S2x2048x8x1024 S1024x1024 S2x2048x8x1024 where
  lhsContracting := [3]
  rhsContracting := [1]
  lhsNonContracting := [0, 1, 2]
  rhsNonContracting := [0]
  lhsBatch := []
  rhsBatch := []
  wf := dot_S2x2048x8x1024_S1024x1024_S2x2048x8x1024_3_1_012_0_n_n_wf
def dot_S2x2048x16x8x64_S2x2048x16x8x64_S2x2048x16x8x8_4_4_3_3_012_012 : DotDims S2x2048x16x8x64 S2x2048x16x8x64 S2x2048x16x8x8 where
  lhsContracting := [4]
  rhsContracting := [4]
  lhsNonContracting := [3]
  rhsNonContracting := [3]
  lhsBatch := [0, 1, 2]
  rhsBatch := [0, 1, 2]
  wf := dot_S2x2048x16x8x64_S2x2048x16x8x64_S2x2048x16x8x8_4_4_3_3_012_012_wf
def dot_S2x2048x16x8x8_S2x2048x16x8x64_S2x2048x16x8x64_4_3_3_4_012_012 : DotDims S2x2048x16x8x8 S2x2048x16x8x64 S2x2048x16x8x64 where
  lhsContracting := [4]
  rhsContracting := [3]
  lhsNonContracting := [3]
  rhsNonContracting := [4]
  lhsBatch := [0, 1, 2]
  rhsBatch := [0, 1, 2]
  wf := dot_S2x2048x16x8x8_S2x2048x16x8x64_S2x2048x16x8x64_4_3_3_4_012_012_wf

class Facts : Prop extends Facts₀ where

variable [Facts]
-- ==== Proof.Arrange.lean ====
/-
  The kernel body's arithmetic, arranged by what it computes.

  The body projects a tile of 64 positions × 8 rows three times (Q, K, V, each laid out as [64, 8, 16, 64]: position, row,
  head, column within the head), then, head by head, takes the three [64, 8, 64] slices of one head, forms the 8 × 8 scores
  of every position, normalises each row of scores, and multiplies by the head's V slice; the sixteen head outputs are put
  side by side on the head axis and projected once more.  The sixteen heads are the same operations at sixteen offsets:
  `headOut o` below.  That the body's stored value is exactly this arrangement holds by unfolding definitions.
-/
import proofs.«150539_j11776800325696_1_alg».proof.Proof.Gen.KernelIdeal.Frame
import Idealize.ShloMosaic.Lib.Pipeline.Value

noncomputable section

namespace Cert.KernelIdeal.Arr

open Cert.KernelIdeal Cert.KernelIdeal.Gen Idealize.ShloMosaic Idealize.SL.Sem

variable {F : FTy → Type} [FloatOps F]

/-- The [64, 8, 1, 64] block of head `o` sits inside [64, 8, 16, 64]. -/
theorem slices_head (o : Nat) (ho : o + 1 ≤ 16) : S64x8x16x64.Slices ![0, 0, o, 0] S64x8x1x64 :=
  ⟨rfl, fun a => match a with
    | ⟨0, _⟩ => by show (0 : ℕ) + 64 ≤ 64; omega
    | ⟨1, _⟩ => by show (0 : ℕ) + 8 ≤ 8; omega
    | ⟨2, _⟩ => ho
    | ⟨3, _⟩ => by show (0 : ℕ) + 64 ≤ 64; omega⟩

/-- Head `o` of a [64, 8, 16, 64] value: its [64, 8, 64] slice. -/
def headSlice (o : Nat) (ho : o + 1 ≤ 16) (v : FVec F S64x8x16x64 .f32) : FVec F S64x8x64 .f32 :=
  shapeCast S64x8x64 (extractStridedSlice S64x8x1x64 ![0, 0, o, 0] v (slices_head o ho)) shapeCasts_S64x8x1x64_S64x8x64

/-- The scores of one head: per position the 8 × 8 products of Q rows with K rows over the head's 64 columns, times
    the scale, plus the bias of the K row. -/
def scoresV (qs ks : FVec F S64x8x64 .f32) (pb : FVec F S64x8 .f32) : FVec F S64x8x8 .f32 :=
  addf (mulf (matmul dot_S64x8x64_S64x8x64_S64x8x8_2_2_1_1_0_0 none (truncf .bf16 qs bitsLt_bf16_f32) (truncf .bf16 ks bitsLt_bf16_f32)
        (constant S64x8x8 .f32 0x00000000#32)) (broadcast S64x8x8 (Scalar.ofBits .f32 0x3E000000#32)))
    (broadcastTo S64x8x8 (shapeCast S64x1x8 pb shapeCasts_S64x8_S64x1x8) broadcasts_S64x1x8_S64x8x8)

/-- The maximum of each row of scores. -/
def rowmaxV (s : FVec F S64x8x8 .f32) : FVec F S64x8 .f32 :=
  maximumf (broadcast S64x8 (Scalar.ofBits .f32 0xFF800000#32))
    (multiReduction .maximumf [2] S64x8 s 0xFF800000#32 reduces_S64x8x8_S64x8 (.inl rfl) rfl)

/-- The exponentials of the scores shifted by their row's maximum. -/
def expV (s : FVec F S64x8x8 .f32) : FVec F S64x8x8 .f32 :=
  exp (subf s (broadcastTo S64x8x8 (shapeCast S64x8x1 (rowmaxV s) shapeCasts_S64x8_S64x8x1) broadcasts_S64x8x1_S64x8x8))

/-- Each exponential divided by its row's sum. -/
def weightsV (e : FVec F S64x8x8 .f32) : FVec F S64x8x8 .f32 :=
  divf e (broadcastTo S64x8x8 (shapeCast S64x8x1 (multiReduction .add [2] S64x8 e 0x00000000#32 reduces_S64x8x8_S64x8 (.inl rfl) rfl)
    shapeCasts_S64x8_S64x8x1) broadcasts_S64x8x1_S64x8x8)

/-- One head from its three slices: the weights times the V slice. -/
def headCore (qs ks vs : FVec F S64x8x64 .f32) (pb : FVec F S64x8 .f32) : FVec F S64x8x64 .f32 :=
  matmul dot_S64x8x8_S64x8x64_S64x8x64_2_1_1_2_0_0 none (truncf .bf16 (weightsV (expV (scoresV qs ks pb))) bitsLt_bf16_f32)
    (truncf .bf16 vs bitsLt_bf16_f32) (constant S64x8x64 .f32 0x00000000#32)

/-- Head `o` of the tile. -/
def headOut (o : Nat) (ho : o + 1 ≤ 16) (Q K V : FVec F S64x8x16x64 .f32) (pb : FVec F S64x8 .f32) : FVec F S64x8x64 .f32 :=
  headCore (headSlice o ho Q) (headSlice o ho K) (headSlice o ho V) pb

/-- The three projections are one operation applied to three weight matrices and biases. -/
theorem proj_k (x : Vec F S1x64x8x1024 .f32) (w : Vec F S1024x1024 .bf16) (b : Vec F S1024 .f32) : k0_pay6 x w b = k0_pay5 x w b := rfl
theorem proj_v (x : Vec F S1x64x8x1024 .f32) (w : Vec F S1024x1024 .bf16) (b : Vec F S1024 .f32) : k0_pay7 x w b = k0_pay5 x w b := rfl

set_option maxRecDepth 65536 in
/-- What the body leaves in the output buffer: the final projection of the sixteen heads side by side. -/
theorem out_eq (x0 : Vec F S1x64x8x1024 .f32) (x1 : Vec F S1x64x8 .f32) (x2 : Vec F S1024x1024 .bf16) (x3 : Vec F S1024 .f32)
    (x4 : Vec F S1024x1024 .bf16) (x5 : Vec F S1024 .f32) (x6 : Vec F S1024x1024 .bf16) (x7 : Vec F S1024 .f32)
    (x8 : Vec F S1024x1024 .bf16) (x9 : Vec F S1024 .f32) :
    out0_10 x0 x1 x2 x3 x4 x5 x6 x7 x8 x9 =
      (let Q := k0_pay5 (View.ld x0 r0_0) (View.ld x2 r0_1) (View.ld x3 r0_2)
       let K := k0_pay5 (View.ld x0 r0_0) (View.ld x4 r0_1) (View.ld x5 r0_2)
       let V := k0_pay5 (View.ld x0 r0_0) (View.ld x6 r0_1) (View.ld x7 r0_2)
       let PB := k0_pay8 (View.ld x1 r0_3)
       View.canon [⟨r0_0, k0_pay2 (k0_pay4 (View.ld x8 r0_1))
         (k0_pay1 (headOut 0 (by decide) Q K V PB)
           (headOut 1 (by decide) Q K V PB)
           (headOut 2 (by decide) Q K V PB)
           (headOut 3 (by decide) Q K V PB)
           (headOut 4 (by decide) Q K V PB)
           (headOut 5 (by decide) Q K V PB)
           (headOut 6 (by decide) Q K V PB)
           (headOut 7 (by decide) Q K V PB)
           (headOut 8 (by decide) Q K V PB)
           (headOut 9 (by decide) Q K V PB)
           (headOut 10 (by decide) Q K V PB)
           (headOut 11 (by decide) Q K V PB)
           (headOut 12 (by decide) Q K V PB)
           (headOut 13 (by decide) Q K V PB)
           (headOut 14 (by decide) Q K V PB)
           (headOut 15 (by decide) Q K V PB))
         (View.ld x9 r0_2)⟩]) := rfl

end Cert.KernelIdeal.Arr

end
-- ==== Proof.Attn.lean ====
/-
  The mathematics of the claim, with no program in sight.

  One position (b, l) of the input carries 8 rows of 1024 numbers, X : Fin 8 → Fin 1024 → EReal, and 8 bias numbers
  pb : Fin 8 → EReal.  Three linear layers give Q, K, V (8 × 1024 each).  The 1024 columns are 16 groups ("heads") of 64:
  column `col g j = 64·g + j`.  Within a head, row q attends to row k with score
      (∑ j, Q q (col g j) · K k (col g j)) · (1/8) + pb k,
  the 8 scores of a row are turned into weights by the usual normalised exponential (shifted by the row's maximum, the
  maximum taken as the fold of `max` from −∞ and once more against −∞, as both programs spell it), the head's output row is
  the weighted sum of V's rows, the heads are laid side by side again, and a fourth linear layer gives the result.
  Everything is over the extended reals; no law beyond the definitions is used, so no finiteness is needed.
-/
import Idealize.ShloMosaic.PureOps.Ideal
import Idealize.ShloMosaic.Lib.ValueIdx

noncomputable section

namespace Cert.Attn

open Idealize.ShloMosaic Idealize.ShloMosaic.ValueIdx

/-- −∞, as the f32 word both programs write. -/
def ninf : EReal := Ideal.ofBits .f32 0xFF800000#32
/-- The score scale 1/8 = 64^(-1/2), as the f32 word both programs write. -/
def scale : EReal := Ideal.ofBits .f32 0x3E000000#32
/-- The offset added to a probability before its logarithm, as the f32 word both programs write. -/
def eps : EReal := Ideal.ofBits .f32 0x322BCC77#32

/-- Column `j` of head `g` among the 1024 columns. -/
def col (g : Fin 16) (j : Fin 64) : Fin 1024 := ⟨g.val * 64 + j.val, by omega⟩

/-- The head a column belongs to, and its place inside the head. -/
def headOf (d : Fin 1024) : Fin 16 := ⟨d.val / 64, by omega⟩
def within (d : Fin 1024) : Fin 64 := ⟨d.val % 64, Nat.mod_lt _ (by norm_num)⟩

theorem col_headOf_within (d : Fin 1024) : col (headOf d) (within d) = d :=
  Fin.ext (by show d.val / 64 * 64 + d.val % 64 = d.val; omega)

/-- A linear layer on one row: `x ↦ x · Wᵀ + b`, the weight stored as [out, in]. -/
def lin (W : Fin 1024 → Fin 1024 → EReal) (b : Fin 1024 → EReal) (x : Fin 1024 → EReal) (e : Fin 1024) : EReal :=
  (∑ d : Fin 1024, x d * W e d) + b e

/-- The score of row `q` against row `k` in head `g`. -/
def score (Q K : Fin 8 → Fin 1024 → EReal) (pb : Fin 8 → EReal) (g : Fin 16) (q k : Fin 8) : EReal :=
  (∑ j : Fin 64, Q q (col g j) * K k (col g j)) * scale + pb k

/-- The maximum of a row of 8 scores, as both programs take it. -/
def rowmax (s : Fin 8 → EReal) : EReal := max ninf ((Finset.univ : Finset (Fin 8)).fold max ninf s)

/-- The normalised exponential of a row of 8 scores. -/
def weight (s : Fin 8 → EReal) (k : Fin 8) : EReal :=
  Ideal.div (Ideal.exp (s k - rowmax s)) (∑ k' : Fin 8, Ideal.exp (s k' - rowmax s))

/-- Head `g`'s output row `q`: the weighted sum of V's rows. -/
def mix (Q K V : Fin 8 → Fin 1024 → EReal) (pb : Fin 8 → EReal) (g : Fin 16) (q : Fin 8) (j : Fin 64) : EReal :=
  ∑ k : Fin 8, weight (score Q K pb g q) k * V k (col g j)

/-- The heads side by side again: 8 rows of 1024. -/
def merged (Q K V : Fin 8 → Fin 1024 → EReal) (pb : Fin 8 → EReal) (q : Fin 8) (d : Fin 1024) : EReal :=
  mix Q K V pb (headOf d) q (within d)

/-- One position: three linear layers, attention among the 8 rows per head, a fourth linear layer. -/
def attn (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 1024 → EReal) (bo : Fin 1024 → EReal)
    (X : Fin 8 → Fin 1024 → EReal) (pb : Fin 8 → EReal) (q : Fin 8) (e : Fin 1024) : EReal :=
  lin Wo bo (merged (fun k => lin Wq bq (X k)) (fun k => lin Wk bk (X k)) (fun k => lin Wv bv (X k)) pb q) e

/-- The bias of position (b, l): the scale times the logarithm of the shifted probability. -/
def bias (probs : (⟨3, ![2, 2048, 8]⟩ : Shape).Idx → EReal) (s : EReal) (b : Fin 2) (l : Fin 2048) (k : Fin 8) : EReal :=
  s * Ideal.log (probs (ix3 b l k) + eps)

/-- The whole result array: the one-position function at every (b, l). -/
def whole (h : (⟨4, ![2, 2048, 8, 1024]⟩ : Shape).Idx → EReal) (probs : (⟨3, ![2, 2048, 8]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal)
    (s : EReal) : (⟨4, ![2, 2048, 8, 1024]⟩ : Shape).Idx → EReal := fun i =>
  attn (fun e d => Wq (ix2 e d)) (fun e => bq (ix1 e)) (fun e d => Wk (ix2 e d)) (fun e => bk (ix1 e))
    (fun e d => Wv (ix2 e d)) (fun e => bv (ix1 e)) (fun e d => Wo (ix2 e d)) (fun e => bo (ix1 e))
    (fun k d => h (ix4 (i 0) (i 1) k d)) (bias probs s (i 0) (i 1)) (i 2) (i 3)

end Cert.Attn

end
-- ==== Proof.Head.lean ====
/-
  One head of the tile, read at an index, at the ideal instance.

  A tile holds 64 positions.  For position `t`, rows `q`, `k` and column `c` of a head:
  the score matmul contracts the 64 columns of the head, the weights matmul contracts the 8 rows; the bias of row `k` is
  broadcast over `q`, a row's maximum and a row's sum are broadcast over `k`.  Put together, entry (t, q, j) of a head's
  output is the weighted sum `Attn.mix` of position `t`'s rows.
-/
import proofs.«150539_j11776800325696_1_alg».proof.Proof.Arrange
import proofs.«150539_j11776800325696_1_alg».proof.Proof.Attn
import Idealize.ShloMosaic.Lib.ValueIdx
import Idealize.ShloMosaic.PureOps.Ideal.Laws

noncomputable section

namespace Cert.KernelIdeal.Arr

open Cert.KernelIdeal Cert.KernelIdeal.Gen Idealize.ShloMosaic Idealize.ShloMosaic.ValueIdx Idealize.SL.Sem

/-! ## The two small matrix products as sums -/

theorem qk_l0 (i : S64x8x8.Idx) (q : dot_S64x8x64_S64x8x64_S64x8x8_2_2_1_1_0_0.contr.Idx) :
    (dot_S64x8x64_S64x8x64_S64x8x8_2_2_1_1_0_0.lhsIdx i q 0).val = (i 0).val := by
  unfold DotDims.lhsIdx
  rw [dif_pos (show (0 : Fin S64x8x64.rank) ∈ dot_S64x8x64_S64x8x64_S64x8x8_2_2_1_1_0_0.lhsBatch by decide)]
  rfl
theorem qk_l1 (i : S64x8x8.Idx) (q : dot_S64x8x64_S64x8x64_S64x8x8_2_2_1_1_0_0.contr.Idx) :
    (dot_S64x8x64_S64x8x64_S64x8x8_2_2_1_1_0_0.lhsIdx i q 1).val = (i 1).val := by
  unfold DotDims.lhsIdx
  rw [dif_neg (show ¬(1 : Fin S64x8x64.rank) ∈ dot_S64x8x64_S64x8x64_S64x8x8_2_2_1_1_0_0.lhsBatch by decide), dif_pos (show (1 : Fin S64x8x64.rank) ∈ dot_S64x8x64_S64x8x64_S64x8x8_2_2_1_1_0_0.lhsNonContracting by decide)]
  rfl
theorem qk_l2 (i : S64x8x8.Idx) (q : dot_S64x8x64_S64x8x64_S64x8x8_2_2_1_1_0_0.contr.Idx) :
    (dot_S64x8x64_S64x8x64_S64x8x8_2_2_1_1_0_0.lhsIdx i q 2).val = (q ⟨0, by decide⟩).val :=
  dot_S64x8x64_S64x8x64_S64x8x8_2_2_1_1_0_0.lhsIdx_val_of_single rfl i q
theorem qk_r0 (i : S64x8x8.Idx) (q : dot_S64x8x64_S64x8x64_S64x8x8_2_2_1_1_0_0.contr.Idx) :
    (dot_S64x8x64_S64x8x64_S64x8x8_2_2_1_1_0_0.rhsIdx i q 0).val = (i 0).val := by
  unfold DotDims.rhsIdx
  rw [dif_pos (show (0 : Fin S64x8x64.rank) ∈ dot_S64x8x64_S64x8x64_S64x8x8_2_2_1_1_0_0.rhsBatch by decide)]
  rfl
theorem qk_r1 (i : S64x8x8.Idx) (q : dot_S64x8x64_S64x8x64_S64x8x8_2_2_1_1_0_0.contr.Idx) :
    (dot_S64x8x64_S64x8x64_S64x8x8_2_2_1_1_0_0.rhsIdx i q 1).val = (i 2).val := by
  unfold DotDims.rhsIdx
  rw [dif_neg (show ¬(1 : Fin S64x8x64.rank) ∈ dot_S64x8x64_S64x8x64_S64x8x8_2_2_1_1_0_0.rhsBatch by decide), dif_pos (show (1 : Fin S64x8x64.rank) ∈ dot_S64x8x64_S64x8x64_S64x8x8_2_2_1_1_0_0.rhsNonContracting by decide)]
  rfl
theorem qk_r2 (i : S64x8x8.Idx) (q : dot_S64x8x64_S64x8x64_S64x8x8_2_2_1_1_0_0.contr.Idx) :
    (dot_S64x8x64_S64x8x64_S64x8x8_2_2_1_1_0_0.rhsIdx i q 2).val = (q ⟨0, by decide⟩).val :=
  dot_S64x8x64_S64x8x64_S64x8x8_2_2_1_1_0_0.rhsIdx_val_of_single rfl i q

theorem qk_lhs (i : S64x8x8.Idx) (c : Fin 64) :
    dot_S64x8x64_S64x8x64_S64x8x8_2_2_1_1_0_0.lhsIdx i ((contrEquiv1 dot_S64x8x64_S64x8x64_S64x8x8_2_2_1_1_0_0 64 rfl rfl).symm c) = ix3 (i 0) (i 1) c :=
  funext fun a => Fin.ext (by
    have hk := contrEquiv1_symm_val dot_S64x8x64_S64x8x64_S64x8x8_2_2_1_1_0_0 64 rfl rfl c
    match a with
    | ⟨0, _⟩ => exact qk_l0 _ _
    | ⟨1, _⟩ => exact qk_l1 _ _
    | ⟨2, _⟩ => exact (qk_l2 _ _).trans hk)

theorem qk_rhs (i : S64x8x8.Idx) (c : Fin 64) :
    dot_S64x8x64_S64x8x64_S64x8x8_2_2_1_1_0_0.rhsIdx i ((contrEquiv1 dot_S64x8x64_S64x8x64_S64x8x8_2_2_1_1_0_0 64 rfl rfl).symm c) = ix3 (i 0) (i 2) c :=
  funext fun a => Fin.ext (by
    have hk := contrEquiv1_symm_val dot_S64x8x64_S64x8x64_S64x8x8_2_2_1_1_0_0 64 rfl rfl c
    match a with
    | ⟨0, _⟩ => exact qk_r0 _ _
    | ⟨1, _⟩ => exact qk_r1 _ _
    | ⟨2, _⟩ => exact (qk_r2 _ _).trans hk)

/-- Per position, rows of the left operand against rows of the right over the 64 columns. -/
theorem qk_apply (a b : FVec Ideal S64x8x64 .bf16) (t : Fin 64) (q k : Fin 8) :
    matmul dot_S64x8x64_S64x8x64_S64x8x8_2_2_1_1_0_0 none a b (constant S64x8x8 .f32 0x00000000#32) (ix3 t q k)
      = ∑ c : Fin 64, a (ix3 t q c) * b (ix3 t k c) := by
  simp only [matmul]
  rw [Ideal.matmul_constant_zero_apply, ← Equiv.sum_comp (contrEquiv1 dot_S64x8x64_S64x8x64_S64x8x8_2_2_1_1_0_0 64 rfl rfl).symm]
  refine Finset.sum_congr rfl fun c _ => ?_
  rw [qk_lhs, qk_rhs]
  rfl

theorem pv_l0 (i : S64x8x64.Idx) (q : dot_S64x8x8_S64x8x64_S64x8x64_2_1_1_2_0_0.contr.Idx) :
    (dot_S64x8x8_S64x8x64_S64x8x64_2_1_1_2_0_0.lhsIdx i q 0).val = (i 0).val := by
  unfold DotDims.lhsIdx
  rw [dif_pos (show (0 : Fin S64x8x8.rank) ∈ dot_S64x8x8_S64x8x64_S64x8x64_2_1_1_2_0_0.lhsBatch by decide)]
  rfl
theorem pv_l1 (i : S64x8x64.Idx) (q : dot_S64x8x8_S64x8x64_S64x8x64_2_1_1_2_0_0.contr.Idx) :
    (dot_S64x8x8_S64x8x64_S64x8x64_2_1_1_2_0_0.lhsIdx i q 1).val = (i 1).val := by
  unfold DotDims.lhsIdx
  rw [dif_neg (show ¬(1 : Fin S64x8x8.rank) ∈ dot_S64x8x8_S64x8x64_S64x8x64_2_1_1_2_0_0.lhsBatch by decide), dif_pos (show (1 : Fin S64x8x8.rank) ∈ dot_S64x8x8_S64x8x64_S64x8x64_2_1_1_2_0_0.lhsNonContracting by decide)]
  rfl
theorem pv_l2 (i : S64x8x64.Idx) (q : dot_S64x8x8_S64x8x64_S64x8x64_2_1_1_2_0_0.contr.Idx) :
    (dot_S64x8x8_S64x8x64_S64x8x64_2_1_1_2_0_0.lhsIdx i q 2).val = (q ⟨0, by decide⟩).val :=
  dot_S64x8x8_S64x8x64_S64x8x64_2_1_1_2_0_0.lhsIdx_val_of_single rfl i q
theorem pv_r0 (i : S64x8x64.Idx) (q : dot_S64x8x8_S64x8x64_S64x8x64_2_1_1_2_0_0.contr.Idx) :
    (dot_S64x8x8_S64x8x64_S64x8x64_2_1_1_2_0_0.rhsIdx i q 0).val = (i 0).val := by
  unfold DotDims.rhsIdx
  rw [dif_pos (show (0 : Fin S64x8x64.rank) ∈ dot_S64x8x8_S64x8x64_S64x8x64_2_1_1_2_0_0.rhsBatch by decide)]
  rfl
theorem pv_r1 (i : S64x8x64.Idx) (q : dot_S64x8x8_S64x8x64_S64x8x64_2_1_1_2_0_0.contr.Idx) :
    (dot_S64x8x8_S64x8x64_S64x8x64_2_1_1_2_0_0.rhsIdx i q 1).val = (q ⟨0, by decide⟩).val :=
  dot_S64x8x8_S64x8x64_S64x8x64_2_1_1_2_0_0.rhsIdx_val_of_single rfl i q
theorem pv_r2 (i : S64x8x64.Idx) (q : dot_S64x8x8_S64x8x64_S64x8x64_2_1_1_2_0_0.contr.Idx) :
    (dot_S64x8x8_S64x8x64_S64x8x64_2_1_1_2_0_0.rhsIdx i q 2).val = (i 2).val := by
  unfold DotDims.rhsIdx
  rw [dif_neg (show ¬(2 : Fin S64x8x64.rank) ∈ dot_S64x8x8_S64x8x64_S64x8x64_2_1_1_2_0_0.rhsBatch by decide), dif_pos (show (2 : Fin S64x8x64.rank) ∈ dot_S64x8x8_S64x8x64_S64x8x64_2_1_1_2_0_0.rhsNonContracting by decide)]
  rfl

theorem pv_lhs (i : S64x8x64.Idx) (k : Fin 8) :
    dot_S64x8x8_S64x8x64_S64x8x64_2_1_1_2_0_0.lhsIdx i ((contrEquiv1 dot_S64x8x8_S64x8x64_S64x8x64_2_1_1_2_0_0 8 rfl rfl).symm k) = ix3 (i 0) (i 1) k :=
  funext fun a => Fin.ext (by
    have hk := contrEquiv1_symm_val dot_S64x8x8_S64x8x64_S64x8x64_2_1_1_2_0_0 8 rfl rfl k
    match a with
    | ⟨0, _⟩ => exact pv_l0 _ _
    | ⟨1, _⟩ => exact pv_l1 _ _
    | ⟨2, _⟩ => exact (pv_l2 _ _).trans hk)

theorem pv_rhs (i : S64x8x64.Idx) (k : Fin 8) :
    dot_S64x8x8_S64x8x64_S64x8x64_2_1_1_2_0_0.rhsIdx i ((contrEquiv1 dot_S64x8x8_S64x8x64_S64x8x64_2_1_1_2_0_0 8 rfl rfl).symm k) = ix3 (i 0) k (i 2) :=
  funext fun a => Fin.ext (by
    have hk := contrEquiv1_symm_val dot_S64x8x8_S64x8x64_S64x8x64_2_1_1_2_0_0 8 rfl rfl k
    match a with
    | ⟨0, _⟩ => exact pv_r0 _ _
    | ⟨1, _⟩ => exact (pv_r1 _ _).trans hk
    | ⟨2, _⟩ => exact pv_r2 _ _)

/-- Per position, a row of 8 weights against the 8 rows of the right operand. -/
theorem pv_apply (w : FVec Ideal S64x8x8 .bf16) (v : FVec Ideal S64x8x64 .bf16) (t : Fin 64) (q : Fin 8) (j : Fin 64) :
    matmul dot_S64x8x8_S64x8x64_S64x8x64_2_1_1_2_0_0 none w v (constant S64x8x64 .f32 0x00000000#32) (ix3 t q j)
      = ∑ k : Fin 8, w (ix3 t q k) * v (ix3 t k j) := by
  simp only [matmul]
  rw [Ideal.matmul_constant_zero_apply, ← Equiv.sum_comp (contrEquiv1 dot_S64x8x8_S64x8x64_S64x8x64_2_1_1_2_0_0 8 rfl rfl).symm]
  refine Finset.sum_congr rfl fun k _ => ?_
  rw [pv_lhs, pv_rhs]
  rfl

/-! ## The broadcasts -/

/-- The bias of row `k`, the same for every `q`. -/
theorem rowcast_apply (pb : FVec Ideal S64x8 .f32) (t : Fin 64) (q k : Fin 8) :
    broadcastTo S64x8x8 (shapeCast S64x1x8 pb shapeCasts_S64x8_S64x1x8) broadcasts_S64x1x8_S64x8x8 (ix3 t q k) = pb (ix2 t k) := by
  refine (broadcastTo_apply _ broadcasts_S64x1x8_S64x8x8 (ix3 t q k) (ix3 t (0 : Fin 1) k) (fun a => match a with
    | ⟨0, _⟩ => rfl
    | ⟨1, _⟩ => rfl
    | ⟨2, _⟩ => rfl)).trans ?_
  exact shapeCast_apply pb shapeCasts_S64x8_S64x1x8 (ix3 t (0 : Fin 1) k) (ix2 t k)
    (by rewrite [Shape.rowMajor_val_two, Shape.rowMajor_val_three]; show t.val * 8 + k.val = (t.val * 1 + 0) * 8 + k.val; omega)

/-- A per-row number (a maximum, a sum), the same for every `k`. -/
theorem colcast_apply (r : FVec Ideal S64x8 .f32) (t : Fin 64) (q k : Fin 8) :
    broadcastTo S64x8x8 (shapeCast S64x8x1 r shapeCasts_S64x8_S64x8x1) broadcasts_S64x8x1_S64x8x8 (ix3 t q k) = r (ix2 t q) := by
  refine (broadcastTo_apply _ broadcasts_S64x8x1_S64x8x8 (ix3 t q k) (ix3 t q (0 : Fin 1)) (fun a => match a with
    | ⟨0, _⟩ => rfl
    | ⟨1, _⟩ => rfl
    | ⟨2, _⟩ => rfl)).trans ?_
  exact shapeCast_apply r shapeCasts_S64x8_S64x8x1 (ix3 t q (0 : Fin 1)) (ix2 t q)
    (by rewrite [Shape.rowMajor_val_two, Shape.rowMajor_val_three]; show t.val * 8 + q.val = (t.val * 8 + q.val) * 1 + 0; omega)

/-! ## A head's slice -/

/-- Entry (t, k, j) of head `o`'s slice is entry (t, k, o, j). -/
theorem headSlice_apply (o : Nat) (ho : o + 1 ≤ 16) (v : FVec Ideal S64x8x16x64 .f32) (t : Fin 64) (k : Fin 8) (j : Fin 64) :
    headSlice o ho v (ix3 t k j) = v (ix4 t k (⟨o, by omega⟩ : Fin 16) j) := by
  unfold headSlice
  refine (shapeCast_apply _ shapeCasts_S64x8x1x64_S64x8x64 (ix3 t k j) (ix4 t k (0 : Fin 1) j)
    (by rewrite [Shape.rowMajor_val_four, Shape.rowMajor_val_three]; show ((t.val * 8 + k.val) * 1 + 0) * 64 + j.val = (t.val * 8 + k.val) * 64 + j.val; omega)).trans ?_
  exact extractStridedSlice_apply ![0, 0, o, 0] v (slices_head o ho) (ix4 t k (0 : Fin 1) j) (ix4 t k (⟨o, by omega⟩ : Fin 16) j) (fun a => match a with
    | ⟨0, _⟩ => by show t.val = 0 + t.val; omega
    | ⟨1, _⟩ => by show k.val = 0 + k.val; omega
    | ⟨2, _⟩ => by show o = o + 0; omega
    | ⟨3, _⟩ => by show j.val = 0 + j.val; omega)

/-! ## The stages of a head at an index -/

theorem scoresV_apply (qs ks : FVec Ideal S64x8x64 .f32) (pb : FVec Ideal S64x8 .f32) (t : Fin 64) (q k : Fin 8) :
    scoresV qs ks pb (ix3 t q k) = (∑ c : Fin 64, qs (ix3 t q c) * ks (ix3 t k c)) * Attn.scale + pb (ix2 t k) := by
  unfold scoresV
  have e1 := qk_apply (truncf .bf16 qs bitsLt_bf16_f32) (truncf .bf16 ks bitsLt_bf16_f32) t q k
  have e2 := rowcast_apply pb t q k
  show matmul dot_S64x8x64_S64x8x64_S64x8x8_2_2_1_1_0_0 none (truncf .bf16 qs bitsLt_bf16_f32) (truncf .bf16 ks bitsLt_bf16_f32) (constant S64x8x8 .f32 0x00000000#32) (ix3 t q k) * Attn.scale
    + broadcastTo S64x8x8 (shapeCast S64x1x8 pb shapeCasts_S64x8_S64x1x8) broadcasts_S64x1x8_S64x8x8 (ix3 t q k) = _
  rw [e1, e2]
  rfl

theorem rowmaxV_apply (s : FVec Ideal S64x8x8 .f32) (t : Fin 64) (q : Fin 8) :
    rowmaxV s (ix2 t q) = Attn.rowmax (fun k => s (ix3 t q k)) := by
  unfold rowmaxV Attn.rowmax
  show max Attn.ninf (multiReduction .maximumf [2] S64x8 s 0xFF800000#32 reduces_S64x8x8_S64x8 (.inl rfl) rfl (ix2 t q)) = _
  refine congrArg (max Attn.ninf) ?_
  refine (Ideal.multiReduction_maximumf_single s 0xFF800000#32 reduces_S64x8x8_S64x8 (.inl rfl) rfl (ix2 t q)).trans ?_
  have e : (s ∘ reduces_S64x8x8_S64x8.lift (ix2 t q)) = fun k : Fin 8 => s (ix3 t q k) :=
    funext fun k => congrArg s (funext fun a => Fin.ext (by
      match a with
      | ⟨0, _⟩ => rfl
      | ⟨1, _⟩ => rfl
      | ⟨2, _⟩ => rfl))
  rw [e]
  rfl

theorem expV_apply (s : FVec Ideal S64x8x8 .f32) (t : Fin 64) (q k : Fin 8) :
    expV s (ix3 t q k) = Ideal.exp (s (ix3 t q k) - Attn.rowmax (fun k' => s (ix3 t q k'))) := by
  unfold expV
  show Ideal.exp (s (ix3 t q k) - broadcastTo S64x8x8 (shapeCast S64x8x1 (rowmaxV s) shapeCasts_S64x8_S64x8x1) broadcasts_S64x8x1_S64x8x8 (ix3 t q k)) = _
  rw [colcast_apply, rowmaxV_apply]

theorem rowsum_apply (e : FVec Ideal S64x8x8 .f32) (t : Fin 64) (q : Fin 8) :
    multiReduction .add [2] S64x8 e 0x00000000#32 reduces_S64x8x8_S64x8 (.inl rfl) rfl (ix2 t q) = ∑ k : Fin 8, e (ix3 t q k) := by
  refine (Ideal.multiReduction_add_single e 0x00000000#32 reduces_S64x8x8_S64x8 (.inl rfl) rfl (ix2 t q)).trans ?_
  refine Finset.sum_congr rfl fun k _ => congrArg e (funext fun a => Fin.ext (by
    match a with
    | ⟨0, _⟩ => rfl
    | ⟨1, _⟩ => rfl
    | ⟨2, _⟩ => rfl))

theorem weightsV_apply (e : FVec Ideal S64x8x8 .f32) (t : Fin 64) (q k : Fin 8) :
    weightsV e (ix3 t q k) = Ideal.div (e (ix3 t q k)) (∑ k' : Fin 8, e (ix3 t q k')) := by
  unfold weightsV
  show Ideal.div (e (ix3 t q k)) (broadcastTo S64x8x8 (shapeCast S64x8x1 (multiReduction .add [2] S64x8 e 0x00000000#32 reduces_S64x8x8_S64x8 (.inl rfl) rfl) shapeCasts_S64x8_S64x8x1) broadcasts_S64x8x1_S64x8x8 (ix3 t q k)) = _
  rw [colcast_apply, rowsum_apply]

/-- The weights of a row of scores are `Attn.weight` of that row. -/
theorem weights_row (s : FVec Ideal S64x8x8 .f32) (t : Fin 64) (q k : Fin 8) :
    weightsV (expV s) (ix3 t q k) = Attn.weight (fun k' => s (ix3 t q k')) k := by
  rw [weightsV_apply, expV_apply]
  unfold Attn.weight
  refine congrArg (Ideal.div _) (Finset.sum_congr rfl fun k' _ => ?_)
  rw [expV_apply]

theorem headCore_apply (qs ks vs : FVec Ideal S64x8x64 .f32) (pb : FVec Ideal S64x8 .f32) (t : Fin 64) (q : Fin 8) (j : Fin 64) :
    headCore qs ks vs pb (ix3 t q j)
      = ∑ k : Fin 8, Attn.weight (fun k' => (∑ c : Fin 64, qs (ix3 t q c) * ks (ix3 t k' c)) * Attn.scale + pb (ix2 t k')) k * vs (ix3 t k j) := by
  unfold headCore
  refine (pv_apply _ _ t q j).trans (Finset.sum_congr rfl fun k _ => ?_)
  show weightsV (expV (scoresV qs ks pb)) (ix3 t q k) * vs (ix3 t k j) = _
  rw [weights_row]
  refine congrArg (· * vs (ix3 t k j)) (congrArg (fun f => Attn.weight f k) (funext fun k' => ?_))
  exact scoresV_apply qs ks pb t q k'

end Cert.KernelIdeal.Arr

end
-- ==== Proof.Proj.lean ====
/-
  The large matrix products of the tile, read at an index, at the ideal instance.

  The tile's 64 positions × 8 rows are the 512 rows of one matrix: row `8·t + k`.  A linear layer multiplies it by the
  transposed weight and adds the bias: entry (r, e) is `∑ d, x r d · W e d + b e`.  The three projections are then laid out
  as [64, 8, 16, 64] — column `e` is (head `e / 64`, place `e % 64`) —, the sixteen head outputs are set side by side on the
  head axis, and the result is read back as 512 rows of 1024 for the last linear layer.
-/
import proofs.«150539_j11776800325696_1_alg».proof.Proof.Arrange
import proofs.«150539_j11776800325696_1_alg».proof.Proof.Attn
import Idealize.ShloMosaic.Lib.ValueIdx
import Idealize.ShloMosaic.Lib.ValueLayout
import Idealize.ShloMosaic.PureOps.Ideal.Laws

noncomputable section

namespace Cert.KernelIdeal.Arr

open Cert.KernelIdeal Cert.KernelIdeal.Gen Idealize.ShloMosaic Idealize.ShloMosaic.ValueIdx Idealize.SL.Sem

/-- Row `k` of position `t` among the tile's 512 rows. -/
def row (t : Fin 64) (k : Fin 8) : Fin 512 := ⟨t.val * 8 + k.val, by omega⟩

/-! ## The large matrix product as a sum -/

theorem xw_l0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem xw_l1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem xw_r0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem xw_r1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem xw_lhs (i : S512x1024.Idx) (d : Fin 1024) :
    dot_S512x1024_S1024x1024_S512x1024_1_0_0_1_n_n.lhsIdx i ((contrEquiv1 dot_S512x1024_S1024x1024_S512x1024_1_0_0_1_n_n 1024 rfl rfl).symm d) = ix2 (i 0) d :=
  funext fun a => Fin.ext (by
    have hk := contrEquiv1_symm_val dot_S512x1024_S1024x1024_S512x1024_1_0_0_1_n_n 1024 rfl rfl d
    match a with
    | ⟨0, _⟩ => exact xw_l0 _ _
    | ⟨1, _⟩ => exact (xw_l1 _ _).trans hk)

theorem xw_rhs (i : S512x1024.Idx) (d : Fin 1024) :
    dot_S512x1024_S1024x1024_S512x1024_1_0_0_1_n_n.rhsIdx i ((contrEquiv1 dot_S512x1024_S1024x1024_S512x1024_1_0_0_1_n_n 1024 rfl rfl).symm d) = ix2 d (i 1) :=
  funext fun a => Fin.ext (by
    have hk := contrEquiv1_symm_val dot_S512x1024_S1024x1024_S512x1024_1_0_0_1_n_n 1024 rfl rfl d
    match a with
    | ⟨0, _⟩ => exact (xw_r0 _ _).trans hk
    | ⟨1, _⟩ => exact xw_r1 _ _)

theorem xw_apply (a : FVec Ideal S512x1024 .bf16) (b : FVec Ideal S1024x1024 .bf16) (r : Fin 512) (e : Fin 1024) :
    matmul dot_S512x1024_S1024x1024_S512x1024_1_0_0_1_n_n none a b (constant S512x1024 .f32 0x00000000#32) (ix2 r e) = ∑ d : Fin 1024, a (ix2 r d) * b (ix2 d e) := by
  simp only [matmul]
  rw [Ideal.matmul_constant_zero_apply, ← Equiv.sum_comp (contrEquiv1 dot_S512x1024_S1024x1024_S512x1024_1_0_0_1_n_n 1024 rfl rfl).symm]
  refine Finset.sum_congr rfl fun d _ => ?_
  rw [xw_lhs, xw_rhs]
  rfl

/-- A linear layer at (r, e): the row against row `e` of the weight, plus the bias. -/
theorem linear_apply (x : FVec Ideal S512x1024 .bf16) (w : FVec Ideal S1024x1024 .bf16) (b : FVec Ideal S1024 .f32) (r : Fin 512) (e : Fin 1024) :
    addf (matmul dot_S512x1024_S1024x1024_S512x1024_1_0_0_1_n_n none x (transpose S1024x1024 [1, 0] w transposes_S1024x1024_p1_0_S1024x1024) (constant S512x1024 .f32 0x00000000#32))
        (broadcastTo S512x1024 (shapeCast S1x1024 b shapeCasts_S1024_S1x1024) broadcasts_S1x1024_S512x1024) (ix2 r e)
      = (∑ d : Fin 1024, x (ix2 r d) * w (ix2 e d)) + b (ix1 e) := by
  show matmul dot_S512x1024_S1024x1024_S512x1024_1_0_0_1_n_n none x (transpose S1024x1024 [1, 0] w transposes_S1024x1024_p1_0_S1024x1024) (constant S512x1024 .f32 0x00000000#32) (ix2 r e)
      + broadcastTo S512x1024 (shapeCast S1x1024 b shapeCasts_S1024_S1x1024) broadcasts_S1x1024_S512x1024 (ix2 r e) = _
  rw [xw_apply]
  have eb : broadcastTo S512x1024 (shapeCast S1x1024 b shapeCasts_S1024_S1x1024) broadcasts_S1x1024_S512x1024 (ix2 r e) = b (ix1 e) :=
    (broadcastTo_1b_ab_apply _ broadcasts_S1x1024_S512x1024 r e).trans (shapeCast_a_1a_apply b shapeCasts_S1024_S1x1024 (0 : Fin 1) e)
  rw [eb]
  refine congrArg (· + b (ix1 e)) (Finset.sum_congr rfl fun d _ => ?_)
  exact congrArg (x (ix2 r d) * ·) (transpose_ix2_apply w transposes_S1024x1024_p1_0_S1024x1024 d e)

/-! ## The tile as 512 rows, and back -/

/-- The tile's input rows as a matrix: row `8·t + k` is row `k` of position `t`. -/
theorem rows_apply (v0 : FVec Ideal S1x64x8x1024 .f32) (t : Fin 64) (k : Fin 8) (d : Fin 1024) :
    k0_pay3 (F := Ideal) v0 (ix2 (row t k) d) = v0 (ix4 (0 : Fin 1) t k d) := by
  unfold k0_pay3
  show shapeCast S512x1024 (shapeCast S64x8x1024 v0 shapeCasts_S1x64x8x1024_S64x8x1024) shapeCasts_S64x8x1024_S512x1024 (ix2 (row t k) d) = _
  refine (shapeCast_apply _ shapeCasts_S64x8x1024_S512x1024 (ix2 (row t k) d) (ix3 t k d)
    (by rewrite [Shape.rowMajor_val_three, Shape.rowMajor_val_two]; show (t.val * 8 + k.val) * 1024 + d.val = (t.val * 8 + k.val) * 1024 + d.val; rfl)).trans ?_
  exact shapeCast_apply v0 shapeCasts_S1x64x8x1024_S64x8x1024 (ix3 t k d) (ix4 (0 : Fin 1) t k d)
    (by rewrite [Shape.rowMajor_val_four, Shape.rowMajor_val_three]; show ((0 * 64 + t.val) * 8 + k.val) * 1024 + d.val = (t.val * 8 + k.val) * 1024 + d.val; omega)

/-- A projection of the tile, laid out by head: entry (t, k, g, j) is the linear layer of row `k` of position `t` at column
    `64·g + j`. -/
theorem proj_apply (v0 : FVec Ideal S1x64x8x1024 .f32) (w : FVec Ideal S1024x1024 .bf16) (b : FVec Ideal S1024 .f32)
    (t : Fin 64) (k : Fin 8) (g : Fin 16) (j : Fin 64) :
    k0_pay5 (F := Ideal) v0 w b (ix4 t k g j) = Attn.lin (fun e d => w (ix2 e d)) (fun e => b (ix1 e)) (fun d => v0 (ix4 (0 : Fin 1) t k d)) (Attn.col g j) := by
  unfold k0_pay5 Attn.lin
  refine (shapeCast_apply _ shapeCasts_S512x1024_S64x8x16x64 (ix4 t k g j) (ix2 (row t k) (Attn.col g j))
    (by rewrite [Shape.rowMajor_val_two, Shape.rowMajor_val_four]; show (t.val * 8 + k.val) * 1024 + (g.val * 64 + j.val) = ((t.val * 8 + k.val) * 16 + g.val) * 64 + j.val; omega)).trans ?_
  rw [shapeCast_self]
  refine (linear_apply (k0_pay3 (F := Ideal) v0) w b (row t k) (Attn.col g j)).trans ?_
  refine congrArg (· + b (ix1 (Attn.col g j))) (Finset.sum_congr rfl fun d _ => ?_)
  rw [rows_apply]

/-- The bias block as [64, 8]. -/
theorem bias_apply (v33 : FVec Ideal S1x64x8 .f32) (t : Fin 64) (k : Fin 8) : k0_pay8 (F := Ideal) v33 (ix2 t k) = v33 (ix3 (0 : Fin 1) t k) := by
  unfold k0_pay8
  exact shapeCast_apply v33 shapeCasts_S1x64x8_S64x8 (ix2 t k) (ix3 (0 : Fin 1) t k)
    (by rewrite [Shape.rowMajor_val_three, Shape.rowMajor_val_two]; show (0 * 64 + t.val) * 8 + k.val = t.val * 8 + k.val; omega)

theorem weight_self (v10 : FVec Ideal S1024x1024 .bf16) : k0_pay4 (F := Ideal) v10 = v10 := by
  unfold k0_pay4
  exact shapeCast_self v10 shapeCasts_S1024x1024_S1024x1024

/-! ## The heads side by side -/

/-- Entry (t, k, g, j) of the sixteen head outputs set side by side on the head axis is entry (t, k, j) of head `g`. -/
theorem sideBySide_apply (h0 h1 h2 h3 h4 h5 h6 h7 h8 h9 h10 h11 h12 h13 h14 h15 : FVec Ideal S64x8x64 .f32) (t : Fin 64) (k : Fin 8) (g : Fin 16) (j : Fin 64) :
    k0_pay1 (F := Ideal) h0 h1 h2 h3 h4 h5 h6 h7 h8 h9 h10 h11 h12 h13 h14 h15 (ix4 t k g j) = (![h0, h1, h2, h3, h4, h5, h6, h7, h8, h9, h10, h11, h12, h13, h14, h15] : Fin 16 → FVec Ideal S64x8x64 .f32) g (ix3 t k j) := by
  unfold k0_pay1
  show concatenate S64x8x16x64 2 (List.ofFn fun n : Fin 16 => (⟨S64x8x1x64, shapeCast S64x8x1x64 ((![h0, h1, h2, h3, h4, h5, h6, h7, h8, h9, h10, h11, h12, h13, h14, h15] : Fin 16 → FVec Ideal S64x8x64 .f32) n) shapeCasts_S64x8x64_S64x8x1x64⟩ : (s : Shape) × (s.Idx → Ideal .f32)))
      concatenates_S64x8x1x64_S64x8x1x64_S64x8x1x64_S64x8x1x64_S64x8x1x64_S64x8x1x64_S64x8x1x64_S64x8x1x64_S64x8x1x64_S64x8x1x64_S64x8x1x64_S64x8x1x64_S64x8x1x64_S64x8x1x64_S64x8x1x64_S64x8x1x64_S64x8x16x64_d2 (ix4 t k g j) = _
  refine (concatenate_ofFn_unit_apply (t := S64x8x16x64) (s₁ := S64x8x1x64) (2 : Fin S64x8x16x64.rank) _ _ rfl rfl (ix4 t k g j) g rfl (ix4 t k (0 : Fin 1) j) (fun b hb => ?_)).trans ?_
  · match b with
    | ⟨0, _⟩ => rfl
    | ⟨1, _⟩ => rfl
    | ⟨2, _⟩ => exact absurd rfl hb
    | ⟨3, _⟩ => rfl
  · exact shapeCast_apply _ shapeCasts_S64x8x64_S64x8x1x64 (ix4 t k (0 : Fin 1) j) (ix3 t k j)
      (by rewrite [Shape.rowMajor_val_three, Shape.rowMajor_val_four]; show (t.val * 8 + k.val) * 64 + j.val = ((t.val * 8 + k.val) * 1 + 0) * 64 + j.val; omega)

/-! ## The last linear layer -/

/-- Entry (0, t, k, e) of the stored block: the linear layer of row `k` of position `t` of the merged heads. -/
theorem last_apply (w : FVec Ideal S1024x1024 .bf16) (hs : FVec Ideal S64x8x16x64 .f32) (b : FVec Ideal S1024 .f32)
    (t : Fin 64) (k : Fin 8) (e : Fin 1024) :
    k0_pay2 (F := Ideal) w hs b (ix4 (0 : Fin 1) t k e)
      = Attn.lin (fun e d => w (ix2 e d)) (fun e => b (ix1 e)) (fun d => hs (ix4 t k (Attn.headOf d) (Attn.within d))) e := by
  unfold k0_pay2 Attn.lin
  refine (shapeCast_apply _ shapeCasts_S64x8x1024_S1x64x8x1024 (ix4 (0 : Fin 1) t k e) (ix3 t k e)
    (by rewrite [Shape.rowMajor_val_three, Shape.rowMajor_val_four]; show (t.val * 8 + k.val) * 1024 + e.val = ((0 * 64 + t.val) * 8 + k.val) * 1024 + e.val; omega)).trans ?_
  refine (shapeCast_apply _ shapeCasts_S512x1024_S64x8x1024 (ix3 t k e) (ix2 (row t k) e)
    (by rewrite [Shape.rowMajor_val_two, Shape.rowMajor_val_three]; show (t.val * 8 + k.val) * 1024 + e.val = (t.val * 8 + k.val) * 1024 + e.val; rfl)).trans ?_
  refine (linear_apply _ w b (row t k) e).trans ?_
  refine congrArg (· + b (ix1 e)) (Finset.sum_congr rfl fun d _ => ?_)
  refine congrArg (· * w (ix2 e d)) ?_
  show shapeCast S512x1024 hs shapeCasts_S64x8x16x64_S512x1024 (ix2 (row t k) d) = _
  exact shapeCast_apply hs shapeCasts_S64x8x16x64_S512x1024 (ix2 (row t k) d) (ix4 t k (Attn.headOf d) (Attn.within d))
    (by rewrite [Shape.rowMajor_val_four, Shape.rowMajor_val_two]; show ((t.val * 8 + k.val) * 16 + d.val / 64) * 64 + d.val % 64 = (t.val * 8 + k.val) * 1024 + d.val; omega)

end Cert.KernelIdeal.Arr

end
-- ==== Proof.Tile.lean ====
/-
  What one grid point stores, read at an index: the one-position function `Attn.attn` of the tile's position.

  The body's single store covers the whole output block, and its loads read the input blocks whole, so the stored value
  is the arrangement of `Arrange` applied to the blocks themselves.  Entry (0, t, k, e) is the last linear layer of row
  `k` of position `t` of the merged heads; a merged column `d` belongs to head `d / 64`, whose output is `Attn.mix` of
  the three projections of position `t`'s rows.
-/
import proofs.«150539_j11776800325696_1_alg».proof.Proof.Head
import proofs.«150539_j11776800325696_1_alg».proof.Proof.Proj

noncomputable section

namespace Cert.KernelIdeal.Arr

open Cert.KernelIdeal Cert.KernelIdeal.Gen Idealize.ShloMosaic Idealize.ShloMosaic.ValueIdx Idealize.SL.Sem

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The stored block as a function of the loaded blocks themselves. -/
theorem out_open (x0 : FVec Ideal S1x64x8x1024 .f32) (x1 : FVec Ideal S1x64x8 .f32) (x2 : FVec Ideal S1024x1024 .bf16) (x3 : FVec Ideal S1024 .f32)
    (x4 : FVec Ideal S1024x1024 .bf16) (x5 : FVec Ideal S1024 .f32) (x6 : FVec Ideal S1024x1024 .bf16) (x7 : FVec Ideal S1024 .f32)
    (x8 : FVec Ideal S1024x1024 .bf16) (x9 : FVec Ideal S1024 .f32) :
    out0_10 (F := Ideal) x0 x1 x2 x3 x4 x5 x6 x7 x8 x9 =
      k0_pay2 (F := Ideal) (k0_pay4 (F := Ideal) x8)
        (k0_pay1 (F := Ideal) (headOut (F := Ideal) 0 (by decide) (k0_pay5 (F := Ideal) x0 x2 x3) (k0_pay5 (F := Ideal) x0 x4 x5) (k0_pay5 (F := Ideal) x0 x6 x7) (k0_pay8 (F := Ideal) x1))
          (headOut (F := Ideal) 1 (by decide) (k0_pay5 (F := Ideal) x0 x2 x3) (k0_pay5 (F := Ideal) x0 x4 x5) (k0_pay5 (F := Ideal) x0 x6 x7) (k0_pay8 (F := Ideal) x1))
          (headOut (F := Ideal) 2 (by decide) (k0_pay5 (F := Ideal) x0 x2 x3) (k0_pay5 (F := Ideal) x0 x4 x5) (k0_pay5 (F := Ideal) x0 x6 x7) (k0_pay8 (F := Ideal) x1))
          (headOut (F := Ideal) 3 (by decide) (k0_pay5 (F := Ideal) x0 x2 x3) (k0_pay5 (F := Ideal) x0 x4 x5) (k0_pay5 (F := Ideal) x0 x6 x7) (k0_pay8 (F := Ideal) x1))
          (headOut (F := Ideal) 4 (by decide) (k0_pay5 (F := Ideal) x0 x2 x3) (k0_pay5 (F := Ideal) x0 x4 x5) (k0_pay5 (F := Ideal) x0 x6 x7) (k0_pay8 (F := Ideal) x1))
          (headOut (F := Ideal) 5 (by decide) (k0_pay5 (F := Ideal) x0 x2 x3) (k0_pay5 (F := Ideal) x0 x4 x5) (k0_pay5 (F := Ideal) x0 x6 x7) (k0_pay8 (F := Ideal) x1))
          (headOut (F := Ideal) 6 (by decide) (k0_pay5 (F := Ideal) x0 x2 x3) (k0_pay5 (F := Ideal) x0 x4 x5) (k0_pay5 (F := Ideal) x0 x6 x7) (k0_pay8 (F := Ideal) x1))
          (headOut (F := Ideal) 7 (by decide) (k0_pay5 (F := Ideal) x0 x2 x3) (k0_pay5 (F := Ideal) x0 x4 x5) (k0_pay5 (F := Ideal) x0 x6 x7) (k0_pay8 (F := Ideal) x1))
          (headOut (F := Ideal) 8 (by decide) (k0_pay5 (F := Ideal) x0 x2 x3) (k0_pay5 (F := Ideal) x0 x4 x5) (k0_pay5 (F := Ideal) x0 x6 x7) (k0_pay8 (F := Ideal) x1))
          (headOut (F := Ideal) 9 (by decide) (k0_pay5 (F := Ideal) x0 x2 x3) (k0_pay5 (F := Ideal) x0 x4 x5) (k0_pay5 (F := Ideal) x0 x6 x7) (k0_pay8 (F := Ideal) x1))
          (headOut (F := Ideal) 10 (by decide) (k0_pay5 (F := Ideal) x0 x2 x3) (k0_pay5 (F := Ideal) x0 x4 x5) (k0_pay5 (F := Ideal) x0 x6 x7) (k0_pay8 (F := Ideal) x1))
          (headOut (F := Ideal) 11 (by decide) (k0_pay5 (F := Ideal) x0 x2 x3) (k0_pay5 (F := Ideal) x0 x4 x5) (k0_pay5 (F := Ideal) x0 x6 x7) (k0_pay8 (F := Ideal) x1))
          (headOut (F := Ideal) 12 (by decide) (k0_pay5 (F := Ideal) x0 x2 x3) (k0_pay5 (F := Ideal) x0 x4 x5) (k0_pay5 (F := Ideal) x0 x6 x7) (k0_pay8 (F := Ideal) x1))
          (headOut (F := Ideal) 13 (by decide) (k0_pay5 (F := Ideal) x0 x2 x3) (k0_pay5 (F := Ideal) x0 x4 x5) (k0_pay5 (F := Ideal) x0 x6 x7) (k0_pay8 (F := Ideal) x1))
          (headOut (F := Ideal) 14 (by decide) (k0_pay5 (F := Ideal) x0 x2 x3) (k0_pay5 (F := Ideal) x0 x4 x5) (k0_pay5 (F := Ideal) x0 x6 x7) (k0_pay8 (F := Ideal) x1))
          (headOut (F := Ideal) 15 (by decide) (k0_pay5 (F := Ideal) x0 x2 x3) (k0_pay5 (F := Ideal) x0 x4 x5) (k0_pay5 (F := Ideal) x0 x6 x7) (k0_pay8 (F := Ideal) x1)))
        x9 := by
  rw [out_eq]
  dsimp only
  rw [View.canon_unit_zero hz4]
  simp only [View.ld_unit_zero (S := S1x64x8x1024) hz4, View.ld_unit_zero (S := S1024x1024) hz2, View.ld_unit_zero (S := S1024) hz1,
    View.ld_unit_zero (S := S1x64x8) hz3]

/-- One head of the tile at (t, q, j): the weighted sum of position `t`'s V rows, the weights from its Q and K rows. -/
theorem headOut_apply (o : Nat) (ho : o + 1 ≤ 16) (x0 : FVec Ideal S1x64x8x1024 .f32) (x1 : FVec Ideal S1x64x8 .f32)
    (x2 : FVec Ideal S1024x1024 .bf16) (x3 : FVec Ideal S1024 .f32) (x4 : FVec Ideal S1024x1024 .bf16) (x5 : FVec Ideal S1024 .f32)
    (x6 : FVec Ideal S1024x1024 .bf16) (x7 : FVec Ideal S1024 .f32) (t : Fin 64) (q : Fin 8) (j : Fin 64) :
    headOut (F := Ideal) o ho (k0_pay5 (F := Ideal) x0 x2 x3) (k0_pay5 (F := Ideal) x0 x4 x5) (k0_pay5 (F := Ideal) x0 x6 x7) (k0_pay8 (F := Ideal) x1) (ix3 t q j)
      = Attn.mix (fun k => Attn.lin (fun e d => x2 (ix2 e d)) (fun e => x3 (ix1 e)) (fun d => x0 (ix4 (0 : Fin 1) t k d)))
          (fun k => Attn.lin (fun e d => x4 (ix2 e d)) (fun e => x5 (ix1 e)) (fun d => x0 (ix4 (0 : Fin 1) t k d)))
          (fun k => Attn.lin (fun e d => x6 (ix2 e d)) (fun e => x7 (ix1 e)) (fun d => x0 (ix4 (0 : Fin 1) t k d)))
          (fun k => x1 (ix3 (0 : Fin 1) t k)) (⟨o, by omega⟩ : Fin 16) q j := by
  unfold headOut
  rw [headCore_apply]
  unfold Attn.mix Attn.score
  refine Finset.sum_congr rfl fun k _ => ?_
  simp only [headSlice_apply, proj_apply, bias_apply]

/-- Entry (0, t, k, e) of what a grid point stores. -/
theorem tile_apply (x0 : FVec Ideal S1x64x8x1024 .f32) (x1 : FVec Ideal S1x64x8 .f32) (x2 : FVec Ideal S1024x1024 .bf16) (x3 : FVec Ideal S1024 .f32)
    (x4 : FVec Ideal S1024x1024 .bf16) (x5 : FVec Ideal S1024 .f32) (x6 : FVec Ideal S1024x1024 .bf16) (x7 : FVec Ideal S1024 .f32)
    (x8 : FVec Ideal S1024x1024 .bf16) (x9 : FVec Ideal S1024 .f32) (t : Fin 64) (k : Fin 8) (e : Fin 1024) :
    out0_10 (F := Ideal) x0 x1 x2 x3 x4 x5 x6 x7 x8 x9 (ix4 (0 : Fin 1) t k e)
      = Attn.attn (fun e d => x2 (ix2 e d)) (fun e => x3 (ix1 e)) (fun e d => x4 (ix2 e d)) (fun e => x5 (ix1 e))
          (fun e d => x6 (ix2 e d)) (fun e => x7 (ix1 e)) (fun e d => x8 (ix2 e d)) (fun e => x9 (ix1 e))
          (fun k d => x0 (ix4 (0 : Fin 1) t k d)) (fun k => x1 (ix3 (0 : Fin 1) t k)) k e := by
  rw [out_open]
  unfold Attn.attn
  rw [last_apply, weight_self]
  refine congrArg (fun f => Attn.lin (fun e d => x8 (ix2 e d)) (fun e => x9 (ix1 e)) f e) (funext fun d => ?_)
  rw [sideBySide_apply]
  unfold Attn.merged
  generalize Attn.headOf d = g
  generalize Attn.within d = j
  fin_cases g
  · exact headOut_apply 0 (by decide) x0 x1 x2 x3 x4 x5 x6 x7 t k j
  · exact headOut_apply 1 (by decide) x0 x1 x2 x3 x4 x5 x6 x7 t k j
  · exact headOut_apply 2 (by decide) x0 x1 x2 x3 x4 x5 x6 x7 t k j
  · exact headOut_apply 3 (by decide) x0 x1 x2 x3 x4 x5 x6 x7 t k j
  · exact headOut_apply 4 (by decide) x0 x1 x2 x3 x4 x5 x6 x7 t k j
  · exact headOut_apply 5 (by decide) x0 x1 x2 x3 x4 x5 x6 x7 t k j
  · exact headOut_apply 6 (by decide) x0 x1 x2 x3 x4 x5 x6 x7 t k j
  · exact headOut_apply 7 (by decide) x0 x1 x2 x3 x4 x5 x6 x7 t k j
  · exact headOut_apply 8 (by decide) x0 x1 x2 x3 x4 x5 x6 x7 t k j
  · exact headOut_apply 9 (by decide) x0 x1 x2 x3 x4 x5 x6 x7 t k j
  · exact headOut_apply 10 (by decide) x0 x1 x2 x3 x4 x5 x6 x7 t k j
  · exact headOut_apply 11 (by decide) x0 x1 x2 x3 x4 x5 x6 x7 t k j
  · exact headOut_apply 12 (by decide) x0 x1 x2 x3 x4 x5 x6 x7 t k j
  · exact headOut_apply 13 (by decide) x0 x1 x2 x3 x4 x5 x6 x7 t k j
  · exact headOut_apply 14 (by decide) x0 x1 x2 x3 x4 x5 x6 x7 t k j
  · exact headOut_apply 15 (by decide) x0 x1 x2 x3 x4 x5 x6 x7 t k j

end Cert.KernelIdeal.Arr

end
-- ==== Proof.Blocks.lean ====
/-
  From blocks to the whole array.

  The grid has 2 × 32 points; point (b, l') stores the block of positions 64·l' … 64·l' + 63 of batch row b, all 8 rows and
  all 1024 columns, and reads the same block of the input, the same 64 × 8 block of the bias array, and the weights and
  biases whole.  So what a point writes back is the restriction to its block of ONE function of the arrays the region finds:
  at (b, l, k, e) the one-position function `Attn.attn` of position (b, l).  The 64 blocks tile the array, so the array ends
  holding that function.  The arrays the region finds are the arguments themselves, except the bias array (the scale times
  the logarithm of the shifted probabilities, computed before the region) and the four weight matrices (format changes,
  the identity over the extended reals).
-/
import proofs.«150539_j11776800325696_1_alg».proof.Proof.Tile
import proofs.«150539_j11776800325696_1_alg».proof.Proof.Gen.KernelIdeal.Value
import Idealize.ShloMosaic.Lib.StableHlo.Run

noncomputable section

namespace Cert.KernelIdeal.Whole

open Cert.KernelIdeal Cert.KernelIdeal.Gen Cert.KernelIdeal.Arr Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What a point stores, at a block index -/

theorem tile_at (x0 : FVec Ideal S1x64x8x1024 .f32) (x1 : FVec Ideal S1x64x8 .f32) (x2 : FVec Ideal S1024x1024 .bf16) (x3 : FVec Ideal S1024 .f32)
    (x4 : FVec Ideal S1024x1024 .bf16) (x5 : FVec Ideal S1024 .f32) (x6 : FVec Ideal S1024x1024 .bf16) (x7 : FVec Ideal S1024 .f32)
    (x8 : FVec Ideal S1024x1024 .bf16) (x9 : FVec Ideal S1024 .f32) (y : S1x64x8x1024.Idx) :
    out0_10 (F := Ideal) x0 x1 x2 x3 x4 x5 x6 x7 x8 x9 y
      = Attn.attn (fun e d => x2 (ix2 e d)) (fun e => x3 (ix1 e)) (fun e d => x4 (ix2 e d)) (fun e => x5 (ix1 e))
          (fun e d => x6 (ix2 e d)) (fun e => x7 (ix1 e)) (fun e d => x8 (ix2 e d)) (fun e => x9 (ix1 e))
          (fun k d => x0 (ix4 (0 : Fin 1) (y 1) k d)) (fun k => x1 (ix3 (0 : Fin 1) (y 1) k)) (y 2) (y 3) := by
  have h0 : y 0 = (0 : Fin 1) := Fin.ext (by have h : (y 0).val < 1 := (y 0).isLt; show (y 0).val = 0; omega)
  have hy : ix4 (0 : Fin 1) (y 1) (y 2) (y 3) = y := by rw [← h0]; exact (eq_ix4 y).symm
  exact (congrArg (out0_10 (F := Ideal) x0 x1 x2 x3 x4 x5 x6 x7 x8 x9) hy).symm.trans
    (tile_apply x0 x1 x2 x3 x4 x5 x6 x7 x8 x9 (y 1) (y 2) (y 3))

/-! ## The arrays the region finds -/

theorem scalar_cast (x : FVec Ideal S_ .f32) (i : S2x2048x8.Idx) : broadcastInDim S2x2048x8 ![] bcast_S_S2x2048x8 x i = x ix0 :=
  broadcastInDim_apply _ bcast_S_S2x2048x8 x i ix0 (fun a => a.elim0)

/-- The bias array as a function of the probabilities and the scale: the scale times the logarithm of the shifted
    probability. -/
def biasArr (p : FVec Ideal S2x2048x8 .f32) (s : FVec Ideal S_ .f32) : FVec Ideal S2x2048x8 .f32 :=
  fun i => s ix0 * Ideal.log (p i + Attn.eps)

/-- The four operations before the region compute it. -/
theorem bias_stage (p : FVec Ideal S2x2048x8 .f32) (s : FVec Ideal S_ .f32) :
    mulf (broadcastInDim S2x2048x8 ![] bcast_S_S2x2048x8 s)
        (Host.log (addf p (broadcastInDim S2x2048x8 ![] bcast_S_S2x2048x8 (constant (F := Ideal) S_ .f32 0x322BCC77#32))))
      = biasArr p s := by
  funext i
  show broadcastInDim S2x2048x8 ![] bcast_S_S2x2048x8 s i
      * Ideal.log (p i + broadcastInDim S2x2048x8 ![] bcast_S_S2x2048x8 (constant (F := Ideal) S_ .f32 0x322BCC77#32) i) = _
  rw [scalar_cast, scalar_cast]
  rfl

theorem V_bias (c : Dev nD) : (V m c main_v4 : FVec Ideal S2x2048x8 .f32)
    = biasArr (m ((c : Thread nD τ).loc main_arg1)) (m ((c : Thread nD τ).loc main_arg10)) := by
  have e : (V m c main_v4 : FVec Ideal S2x2048x8 .f32)
      = mulf (broadcastInDim S2x2048x8 ![] bcast_S_S2x2048x8 (m ((c : Thread nD τ).loc main_arg10)))
          (Host.log (addf (m ((c : Thread nD τ).loc main_arg1)) (broadcastInDim S2x2048x8 ![] bcast_S_S2x2048x8 (constant (F := Ideal) S_ .f32 0x322BCC77#32)))) := by
    dsimp only [Gen.V, Gen.hostOps0]; after_results; try rfl
  exact e.trans (bias_stage _ _)

theorem V_wq (c : Dev nD) : (V m c main_v5 : S1024x1024.Idx → EReal) = (m ((c : Thread nD τ).loc main_arg2)) := by
  dsimp only [Gen.V, Gen.hostOps0]; after_results; rfl
theorem V_wk (c : Dev nD) : (V m c main_v6 : S1024x1024.Idx → EReal) = (m ((c : Thread nD τ).loc main_arg4)) := by
  dsimp only [Gen.V, Gen.hostOps0]; after_results; rfl
theorem V_wv (c : Dev nD) : (V m c main_v7 : S1024x1024.Idx → EReal) = (m ((c : Thread nD τ).loc main_arg6)) := by
  dsimp only [Gen.V, Gen.hostOps0]; after_results; rfl
theorem V_wo (c : Dev nD) : (V m c main_v8 : S1024x1024.Idx → EReal) = (m ((c : Thread nD τ).loc main_arg8)) := by
  dsimp only [Gen.V, Gen.hostOps0]; after_results; rfl

/-! ## The result array as one function of the arrays the region finds -/

def GV (c : Dev nD) : S2x2048x8x1024.Idx → EReal := fun i =>
  Attn.attn (fun e d => (V m c main_v5 : S1024x1024.Idx → EReal) (ix2 e d)) (fun e => (V m c main_arg3 : S1024.Idx → EReal) (ix1 e))
    (fun e d => (V m c main_v6 : S1024x1024.Idx → EReal) (ix2 e d)) (fun e => (V m c main_arg5 : S1024.Idx → EReal) (ix1 e))
    (fun e d => (V m c main_v7 : S1024x1024.Idx → EReal) (ix2 e d)) (fun e => (V m c main_arg7 : S1024.Idx → EReal) (ix1 e))
    (fun e d => (V m c main_v8 : S1024x1024.Idx → EReal) (ix2 e d)) (fun e => (V m c main_arg9 : S1024.Idx → EReal) (ix1 e))
    (fun k d => (V m c main_arg0 : S2x2048x8x1024.Idx → EReal) (ix4 (i 0) (i 1) k d))
    (fun k => (V m c main_v4 : FVec Ideal S2x2048x8 .f32) (ix3 (i 0) (i 1) k)) (i 2) (i 3)

/-- The printed index maps, decided over the 64 points: the input and bias blocks move with the output block on the batch
    and position axes, every other block index is zero. -/
theorem idx_facts : ∀ t : Fin cfg0.N,
    win0_0.index t (0 : Fin 4) = win0_10.index t (0 : Fin 4) ∧ win0_0.index t (1 : Fin 4) = win0_10.index t (1 : Fin 4)
    ∧ win0_0.index t (2 : Fin 4) = 0 ∧ win0_0.index t (3 : Fin 4) = 0
    ∧ win0_1.index t (0 : Fin 3) = win0_10.index t (0 : Fin 4) ∧ win0_1.index t (1 : Fin 3) = win0_10.index t (1 : Fin 4)
    ∧ win0_1.index t (2 : Fin 3) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (2 : Fin 4) = 0 ∧ win0_10.index t (3 : Fin 4) = 0
    ∧ win0_10.index t (0 : Fin 4) ≤ 1 ∧ win0_10.index t (1 : Fin 4) ≤ 31 :=
  (by decide +kernel : ∀ t : Fin grid0.N, _)

/-- Every (batch row, group of 64 positions) is some point's. -/
theorem idx_onto : ∀ (q0 : Fin 2) (q1 : Fin 32), ∃ t : Fin cfg0.N, win0_10.index t = ![q0.val, q1.val, 0, 0] :=
  (by decide +kernel : ∀ (q0 : Fin 2) (q1 : Fin 32), ∃ t : Fin grid0.N, win0_10.index t = ![q0.val, q1.val, 0, 0])

/-- WHAT POINT `t` WRITES BACK is block `t` of `GV`. -/
theorem flushed_eq (c : Dev nD) (t : Fin cfg0.N) :
    (dats m 0 c).flushed 10 t = ((cfg0.win 10).blk t).view.read (Elt Ideal) (GV m c) := by
  rw [Value.flushed10]
  obtain ⟨a00, a01, a02, a03, a10, a11, a12, a20, a21, a30, a40, a41, a50, a60, a61, a70, a80, a81, a90, o2, o3, ob0, ob1⟩ := idx_facts t
  funext y
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = GV m c (((cfg0.win 10).blk t).view.emb y)
  refine (tile_at (iblk m c 0 t) (iblk m c 1 t) (iblk m c 2 t) (iblk m c 3 t) (iblk m c 4 t) (iblk m c 5 t) (iblk m c 6 t) (iblk m c 7 t) (iblk m c 8 t) (iblk m c 9 t) y).trans ?_
  unfold GV
  have hy0 : (y 0).val < 1 := (y 0).isLt
  have H0 : (fun (k : Fin 8) (d : Fin 1024) => iblk m c 0 t (ix4 (0 : Fin 1) (y 1) k d))
      = fun k d => (V m c main_arg0 : S2x2048x8x1024.Idx → EReal) (ix4 ((((cfg0.win 10).blk t).view.emb y) 0) ((((cfg0.win 10).blk t).view.emb y) 1) k d) :=
    funext fun k => funext fun d => by
      show V m c main_arg0 (((cfg0.win 0).blk t).view.emb (ix4 (0 : Fin 1) (y 1) k d)) = _
      refine congrArg (V m c main_arg0) (funext fun a => Fin.ext ?_)
      match a with
      | ⟨0, _⟩ => show win0_0.index t (0 : Fin 4) * 1 + 1 * 0 = win0_10.index t (0 : Fin 4) * 1 + 1 * (y 0).val; omega
      | ⟨1, _⟩ => show win0_0.index t (1 : Fin 4) * 64 + 1 * (y 1).val = win0_10.index t (1 : Fin 4) * 64 + 1 * (y 1).val; omega
      | ⟨2, _⟩ => show win0_0.index t (2 : Fin 4) * 8 + 1 * k.val = k.val; omega
      | ⟨3, _⟩ => show win0_0.index t (3 : Fin 4) * 1024 + 1 * d.val = d.val; omega
  have H1 : (fun (k : Fin 8) => iblk m c 1 t (ix3 (0 : Fin 1) (y 1) k))
      = fun k => (V m c main_v4 : FVec Ideal S2x2048x8 .f32) (ix3 ((((cfg0.win 10).blk t).view.emb y) 0) ((((cfg0.win 10).blk t).view.emb y) 1) k) :=
    funext fun k => by
      show V m c main_v4 (((cfg0.win 1).blk t).view.emb (ix3 (0 : Fin 1) (y 1) k)) = _
      refine congrArg (V m c main_v4) (funext fun a => Fin.ext ?_)
      match a with
      | ⟨0, _⟩ => show win0_1.index t (0 : Fin 3) * 1 + 1 * 0 = win0_10.index t (0 : Fin 4) * 1 + 1 * (y 0).val; omega
      | ⟨1, _⟩ => show win0_1.index t (1 : Fin 3) * 64 + 1 * (y 1).val = win0_10.index t (1 : Fin 4) * 64 + 1 * (y 1).val; omega
      | ⟨2, _⟩ => show win0_1.index t (2 : Fin 3) * 8 + 1 * k.val = k.val; omega
  have H2 : (fun (e d : Fin 1024) => iblk m c 2 t (ix2 e d)) = fun e d => (V m c main_v5 : S1024x1024.Idx → EReal) (ix2 e d) :=
    funext fun e => funext fun d => by
      show V m c main_v5 (((cfg0.win 2).blk t).view.emb (ix2 e d)) = _
      refine congrArg (V m c main_v5) (funext fun a => Fin.ext ?_)
      match a with
      | ⟨0, _⟩ => show win0_2.index t (0 : Fin 2) * 1024 + 1 * e.val = e.val; omega
      | ⟨1, _⟩ => show win0_2.index t (1 : Fin 2) * 1024 + 1 * d.val = d.val; omega
  have H3 : (fun (e : Fin 1024) => iblk m c 3 t (ix1 e)) = fun e => (V m c main_arg3 : S1024.Idx → EReal) (ix1 e) :=
    funext fun e => by
      show V m c main_arg3 (((cfg0.win 3).blk t).view.emb (ix1 e)) = _
      refine congrArg (V m c main_arg3) (funext fun a => Fin.ext ?_)
      match a with
      | ⟨0, _⟩ => show win0_3.index t (0 : Fin 1) * 1024 + 1 * e.val = e.val; omega
  have H4 : (fun (e d : Fin 1024) => iblk m c 4 t (ix2 e d)) = fun e d => (V m c main_v6 : S1024x1024.Idx → EReal) (ix2 e d) :=
    funext fun e => funext fun d => by
      show V m c main_v6 (((cfg0.win 4).blk t).view.emb (ix2 e d)) = _
      refine congrArg (V m c main_v6) (funext fun a => Fin.ext ?_)
      match a with
      | ⟨0, _⟩ => show win0_4.index t (0 : Fin 2) * 1024 + 1 * e.val = e.val; omega
      | ⟨1, _⟩ => show win0_4.index t (1 : Fin 2) * 1024 + 1 * d.val = d.val; omega
  have H5 : (fun (e : Fin 1024) => iblk m c 5 t (ix1 e)) = fun e => (V m c main_arg5 : S1024.Idx → EReal) (ix1 e) :=
    funext fun e => by
      show V m c main_arg5 (((cfg0.win 5).blk t).view.emb (ix1 e)) = _
      refine congrArg (V m c main_arg5) (funext fun a => Fin.ext ?_)
      match a with
      | ⟨0, _⟩ => show win0_5.index t (0 : Fin 1) * 1024 + 1 * e.val = e.val; omega
  have H6 : (fun (e d : Fin 1024) => iblk m c 6 t (ix2 e d)) = fun e d => (V m c main_v7 : S1024x1024.Idx → EReal) (ix2 e d) :=
    funext fun e => funext fun d => by
      show V m c main_v7 (((cfg0.win 6).blk t).view.emb (ix2 e d)) = _
      refine congrArg (V m c main_v7) (funext fun a => Fin.ext ?_)
      match a with
      | ⟨0, _⟩ => show win0_6.index t (0 : Fin 2) * 1024 + 1 * e.val = e.val; omega
      | ⟨1, _⟩ => show win0_6.index t (1 : Fin 2) * 1024 + 1 * d.val = d.val; omega
  have H7 : (fun (e : Fin 1024) => iblk m c 7 t (ix1 e)) = fun e => (V m c main_arg7 : S1024.Idx → EReal) (ix1 e) :=
    funext fun e => by
      show V m c main_arg7 (((cfg0.win 7).blk t).view.emb (ix1 e)) = _
      refine congrArg (V m c main_arg7) (funext fun a => Fin.ext ?_)
      match a with
      | ⟨0, _⟩ => show win0_7.index t (0 : Fin 1) * 1024 + 1 * e.val = e.val; omega
  have H8 : (fun (e d : Fin 1024) => iblk m c 8 t (ix2 e d)) = fun e d => (V m c main_v8 : S1024x1024.Idx → EReal) (ix2 e d) :=
    funext fun e => funext fun d => by
      show V m c main_v8 (((cfg0.win 8).blk t).view.emb (ix2 e d)) = _
      refine congrArg (V m c main_v8) (funext fun a => Fin.ext ?_)
      match a with
      | ⟨0, _⟩ => show win0_8.index t (0 : Fin 2) * 1024 + 1 * e.val = e.val; omega
      | ⟨1, _⟩ => show win0_8.index t (1 : Fin 2) * 1024 + 1 * d.val = d.val; omega
  have H9 : (fun (e : Fin 1024) => iblk m c 9 t (ix1 e)) = fun e => (V m c main_arg9 : S1024.Idx → EReal) (ix1 e) :=
    funext fun e => by
      show V m c main_arg9 (((cfg0.win 9).blk t).view.emb (ix1 e)) = _
      refine congrArg (V m c main_arg9) (funext fun a => Fin.ext ?_)
      match a with
      | ⟨0, _⟩ => show win0_9.index t (0 : Fin 1) * 1024 + 1 * e.val = e.val; omega
  have e2 : ((((cfg0.win 10).blk t).view.emb y) 2 : Fin 8) = y 2 :=
    Fin.ext (by show win0_10.index t (2 : Fin 4) * 8 + 1 * (y 2).val = (y 2).val; omega)
  have e3 : ((((cfg0.win 10).blk t).view.emb y) 3 : Fin 1024) = y 3 :=
    Fin.ext (by show win0_10.index t (3 : Fin 4) * 1024 + 1 * (y 3).val = (y 3).val; omega)
  rw [H0, H1, H2, H3, H4, H5, H6, H7, H8, H9, e2, e3]

/-- An index of the array is in point `t`'s block iff each coordinate is in the block's range on its axis. -/
theorem mem_blk (t : Fin cfg0.N) (i : S2x2048x8x1024.Idx) :
    i ∈ ((cfg0.win 10).blk t).view.set ↔ ∀ a : Fin 4, win0_10.index t a * S1x64x8x1024.size a ≤ (i a).val ∧ (i a).val < win0_10.index t a * S1x64x8x1024.size a + S1x64x8x1024.size a := by
  show i ∈ ((View.whole main_v9).slice (win0_10.rect t)).set ↔ _
  rw [View.set_slice_whole, Rect.mem_set_unit]
  exact Iff.rfl

/-- The 64 blocks tile the array: index (b, l, k, e) is in the block of the point at (b, l / 64). -/
theorem cover (i : S2x2048x8x1024.Idx) : ∃ t : Fin cfg0.N, (cfg0.win 10).flush t = true ∧ i ∈ ((cfg0.win 10).blk t).view.set := by
  have hi0 : (i 0).val < 2 := (i 0).isLt
  have hi1 : (i 1).val < 2048 := (i 1).isLt
  have hi2 : (i 2).val < 8 := (i 2).isLt
  have hi3 : (i 3).val < 1024 := (i 3).isLt
  obtain ⟨t, ht⟩ := idx_onto ⟨(i 0).val, hi0⟩ ⟨(i 1).val / 64, by omega⟩
  have q0 : win0_10.index t (0 : Fin 4) = (i 0).val := congrFun ht 0
  have q1 : win0_10.index t (1 : Fin 4) = (i 1).val / 64 := congrFun ht 1
  have q2 : win0_10.index t (2 : Fin 4) = 0 := congrFun ht 2
  have q3 : win0_10.index t (3 : Fin 4) = 0 := congrFun ht 3
  refine ⟨t, flush0_10 t, ?_⟩
  rw [mem_blk]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 64 ≤ (i 1).val ∧ (i 1).val < win0_10.index t (1 : Fin 4) * 64 + 64; omega
  | ⟨2, _⟩ => show win0_10.index t (2 : Fin 4) * 8 ≤ (i 2).val ∧ (i 2).val < win0_10.index t (2 : Fin 4) * 8 + 8; omega
  | ⟨3, _⟩ => show win0_10.index t (3 : Fin 4) * 1024 ≤ (i 3).val ∧ (i 3).val < win0_10.index t (3 : Fin 4) * 1024 + 1024; omega

/-- THE ARRAY after the run. -/
theorem final (c : Dev nD) : (dats m 0 c).arrAt 10 cfg0.N = GV m c :=
  (dats m 0 c).arrAt_eq_of_cover 10 (GV m c) (fun t _ => flushed_eq m c t) cover

/-- In terms of the arguments: the one-position function at every (b, l). -/
theorem GV_eq (c : Dev nD) : GV m c = Attn.whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ((m ((c : Thread nD τ).loc main_arg10)) ix0) := by
  unfold GV Attn.whole Attn.bias
  rw [V_wq, V_wk, V_wv, V_wo, V_bias, V_main_arg0, V_main_arg3, V_main_arg5, V_main_arg7, V_main_arg9]
  rfl

/-! ## The run, read -/

/-- Every weakly fair execution of the kernel's program ends with the result array at `Attn.whole` of the arguments, the
    arguments unchanged. -/
theorem run : θ_run defs (onTc (τ := τ) (main (F := Ideal))) ⟨m, fun _ => 0, ρ⟩ fun r => ∀ c : Dev nD,
      r.2.mem ((c : Thread nD τ).loc main_v9) = Attn.whole (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ((m ((c : Thread nD τ).loc main_arg10)) ix0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (GV_eq m c)), (h c).2⟩) (Value.run_blocks m ρ)

end Cert.KernelIdeal.Whole

end
-- ==== Proof.RefIsAttn.lean ====
/-
  The reference program computes the attention of Proof/Attn.lean.

  The program's 47 operations are read one element at a time.  Three linear layers give Q, K, V; the reshape to
  [.., 16, 64] followed by the exchange of the row axis and the head axis reads column `64·g + j` of row `r` at
  (g, r, j); the score, the row maximum, the normalised exponential and the weighted sum of V's rows are then the
  specification's `score`, `rowmax`, `weight` and `mix` term by term; the exchange and reshape back read head
  `d / 64`, place `d % 64` at column `d` (`merged`), and the last linear layer is `lin` again.  Every index
  function the operations compose is identified with an index given by its coordinates, coordinate by coordinate.
-/
import proofs.«150539_j11776800325696_1_alg».proof.Proof.Gen.ReferenceIdeal.Read
import proofs.«150539_j11776800325696_1_alg».proof.Proof.Attn
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- A weight array read as a matrix, stored [out, in]. -/
abbrev mat (w : S1024x1024.Idx → EReal) : Fin 1024 → Fin 1024 → EReal := fun e d => w (ix2 e d)
/-- A bias array read as a vector. -/
abbrev vec (v : S1024.Idx → EReal) : Fin 1024 → EReal := fun e => v (ix1 e)
/-- The 8 rows of position (b, l) of the input. -/
abbrev rowsAt (h : S2x2048x8x1024.Idx → EReal) (b : Fin 2) (l : Fin 2048) : Fin 8 → Fin 1024 → EReal :=
  fun k d => h (ix4 b l k d)
/-- A linear layer applied to each of the 8 rows of position (b, l). -/
abbrev proj (h : S2x2048x8x1024.Idx → EReal) (w : S1024x1024.Idx → EReal) (v : S1024.Idx → EReal) (b : Fin 2) (l : Fin 2048) :
    Fin 8 → Fin 1024 → EReal := fun k => Attn.lin (mat w) (vec v) (rowsAt h b l k)

/-- Two indices of rank 1 … 5 whose coordinates agree definitionally are equal. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))
local macro "idx4" : tactic => `(tactic| (funext a; match a with | ⟨0, _⟩ => rfl | ⟨1, _⟩ => rfl | ⟨2, _⟩ => rfl | ⟨3, _⟩ => rfl))
local macro "idx5" : tactic =>
  `(tactic| (funext a; match a with | ⟨0, _⟩ => rfl | ⟨1, _⟩ => rfl | ⟨2, _⟩ => rfl | ⟨3, _⟩ => rfl | ⟨4, _⟩ => rfl))

section
variable (x0 : (⟨S2x2048x8x1024, .f32⟩ : BufTy).Contents (Elt Ideal))
  (x1 : (⟨S2x2048x8, .f32⟩ : BufTy).Contents (Elt Ideal))
  (x2 : (⟨S1024x1024, .f32⟩ : BufTy).Contents (Elt Ideal))
  (x3 : (⟨S1024, .f32⟩ : BufTy).Contents (Elt Ideal))
  (x4 : (⟨S1024x1024, .f32⟩ : BufTy).Contents (Elt Ideal))
  (x5 : (⟨S1024, .f32⟩ : BufTy).Contents (Elt Ideal))
  (x6 : (⟨S1024x1024, .f32⟩ : BufTy).Contents (Elt Ideal))
  (x7 : (⟨S1024, .f32⟩ : BufTy).Contents (Elt Ideal))
  (x8 : (⟨S1024x1024, .f32⟩ : BufTy).Contents (Elt Ideal))
  (x9 : (⟨S1024, .f32⟩ : BufTy).Contents (Elt Ideal))
  (x10 : (⟨S_, .f32⟩ : BufTy).Contents (Elt Ideal))

/-- Stage %3 is the linear layer on the row it reads. -/
theorem v3_at (b : Fin 2) (l : Fin 2048) (r : Fin 8) (c : Fin 1024) :
    val_main_v3 (F := Ideal) x0 x2 x3 (ix4 b l r c) = proj x0 x2 x3 b l r c := by
  rw [val_main_v3_apply, val_main_v0_apply, val_main_v2_apply, val_main_v1_apply]
  show (∑ k : Fin 1024, x0 (lidx_main_v0 (ix4 b l r c) k) * x2 (ridx_main_v0 (ix4 b l r c) k))
      + x3 (idx_main_v1 (idx_main_v2 (ix4 b l r c)))
    = (∑ d : Fin 1024, x0 (ix4 b l r d) * x2 (ix2 c d)) + x3 (ix1 c)
  refine congrArg₂ (fun s t : EReal => s + t) (Finset.sum_congr rfl fun k _ => ?_) (congrArg x3 (by idx1))
  exact congrArg₂ (fun s t : EReal => s * t) (congrArg x0 (by idx4)) (congrArg x2 (by idx2))

/-- Stage %7 is the linear layer on the row it reads. -/
theorem v7_at (b : Fin 2) (l : Fin 2048) (r : Fin 8) (c : Fin 1024) :
    val_main_v7 (F := Ideal) x0 x4 x5 (ix4 b l r c) = proj x0 x4 x5 b l r c := by
  rw [val_main_v7_apply, val_main_v4_apply, val_main_v6_apply, val_main_v5_apply]
  show (∑ k : Fin 1024, x0 (lidx_main_v4 (ix4 b l r c) k) * x4 (ridx_main_v4 (ix4 b l r c) k))
      + x5 (idx_main_v5 (idx_main_v6 (ix4 b l r c)))
    = (∑ d : Fin 1024, x0 (ix4 b l r d) * x4 (ix2 c d)) + x5 (ix1 c)
  refine congrArg₂ (fun s t : EReal => s + t) (Finset.sum_congr rfl fun k _ => ?_) (congrArg x5 (by idx1))
  exact congrArg₂ (fun s t : EReal => s * t) (congrArg x0 (by idx4)) (congrArg x4 (by idx2))

/-- Stage %11 is the linear layer on the row it reads. -/
theorem v11_at (b : Fin 2) (l : Fin 2048) (r : Fin 8) (c : Fin 1024) :
    val_main_v11 (F := Ideal) x0 x6 x7 (ix4 b l r c) = proj x0 x6 x7 b l r c := by
  rw [val_main_v11_apply, val_main_v8_apply, val_main_v10_apply, val_main_v9_apply]
  show (∑ k : Fin 1024, x0 (lidx_main_v8 (ix4 b l r c) k) * x6 (ridx_main_v8 (ix4 b l r c) k))
      + x7 (idx_main_v9 (idx_main_v10 (ix4 b l r c)))
    = (∑ d : Fin 1024, x0 (ix4 b l r d) * x6 (ix2 c d)) + x7 (ix1 c)
  refine congrArg₂ (fun s t : EReal => s + t) (Finset.sum_congr rfl fun k _ => ?_) (congrArg x7 (by idx1))
  exact congrArg₂ (fun s t : EReal => s * t) (congrArg x0 (by idx4)) (congrArg x6 (by idx2))

/-- Stage %13: the reshape to [.., 16, 64] and the exchange of rows and heads read column `64·g + j` of row `r`. -/
theorem v13_at (b : Fin 2) (l : Fin 2048) (g : Fin 16) (r : Fin 8) (j : Fin 64) :
    val_main_v13 (F := Ideal) x0 x2 x3 (ix5 b l g r j) = proj x0 x2 x3 b l r (Attn.col g j) := by
  rw [val_main_v13_apply, val_main_v12_apply]
  refine Eq.trans (congrArg (val_main_v3 (F := Ideal) x0 x2 x3) ?_) (v3_at x0 x2 x3 b l r (Attn.col g j))
  funext a
  refine Fin.ext ?_
  have hb := b.isLt; have hl := l.isLt; have hg := g.isLt; have hr := r.isLt; have hj := j.isLt
  match a with
  | ⟨0, _⟩ => exact (by omega : ((((b.val * 2048 + l.val) * 8 + r.val) * 16 + g.val) * 64 + j.val) / 16777216 = b.val)
  | ⟨1, _⟩ => exact (by omega : ((((b.val * 2048 + l.val) * 8 + r.val) * 16 + g.val) * 64 + j.val) / 8192 % 2048 = l.val)
  | ⟨2, _⟩ => exact (by omega : ((((b.val * 2048 + l.val) * 8 + r.val) * 16 + g.val) * 64 + j.val) / 1024 % 8 = r.val)
  | ⟨3, _⟩ => exact (by omega : ((((b.val * 2048 + l.val) * 8 + r.val) * 16 + g.val) * 64 + j.val) % 1024 = g.val * 64 + j.val)

/-- Stage %15: the reshape to [.., 16, 64] and the exchange of rows and heads read column `64·g + j` of row `r`. -/
theorem v15_at (b : Fin 2) (l : Fin 2048) (g : Fin 16) (r : Fin 8) (j : Fin 64) :
    val_main_v15 (F := Ideal) x0 x4 x5 (ix5 b l g r j) = proj x0 x4 x5 b l r (Attn.col g j) := by
  rw [val_main_v15_apply, val_main_v14_apply]
  refine Eq.trans (congrArg (val_main_v7 (F := Ideal) x0 x4 x5) ?_) (v7_at x0 x4 x5 b l r (Attn.col g j))
  funext a
  refine Fin.ext ?_
  have hb := b.isLt; have hl := l.isLt; have hg := g.isLt; have hr := r.isLt; have hj := j.isLt
  match a with
  | ⟨0, _⟩ => exact (by omega : ((((b.val * 2048 + l.val) * 8 + r.val) * 16 + g.val) * 64 + j.val) / 16777216 = b.val)
  | ⟨1, _⟩ => exact (by omega : ((((b.val * 2048 + l.val) * 8 + r.val) * 16 + g.val) * 64 + j.val) / 8192 % 2048 = l.val)
  | ⟨2, _⟩ => exact (by omega : ((((b.val * 2048 + l.val) * 8 + r.val) * 16 + g.val) * 64 + j.val) / 1024 % 8 = r.val)
  | ⟨3, _⟩ => exact (by omega : ((((b.val * 2048 + l.val) * 8 + r.val) * 16 + g.val) * 64 + j.val) % 1024 = g.val * 64 + j.val)

/-- Stage %17: the reshape to [.., 16, 64] and the exchange of rows and heads read column `64·g + j` of row `r`. -/
theorem v17_at (b : Fin 2) (l : Fin 2048) (g : Fin 16) (r : Fin 8) (j : Fin 64) :
    val_main_v17 (F := Ideal) x0 x6 x7 (ix5 b l g r j) = proj x0 x6 x7 b l r (Attn.col g j) := by
  rw [val_main_v17_apply, val_main_v16_apply]
  refine Eq.trans (congrArg (val_main_v11 (F := Ideal) x0 x6 x7) ?_) (v11_at x0 x6 x7 b l r (Attn.col g j))
  funext a
  refine Fin.ext ?_
  have hb := b.isLt; have hl := l.isLt; have hg := g.isLt; have hr := r.isLt; have hj := j.isLt
  match a with
  | ⟨0, _⟩ => exact (by omega : ((((b.val * 2048 + l.val) * 8 + r.val) * 16 + g.val) * 64 + j.val) / 16777216 = b.val)
  | ⟨1, _⟩ => exact (by omega : ((((b.val * 2048 + l.val) * 8 + r.val) * 16 + g.val) * 64 + j.val) / 8192 % 2048 = l.val)
  | ⟨2, _⟩ => exact (by omega : ((((b.val * 2048 + l.val) * 8 + r.val) * 16 + g.val) * 64 + j.val) / 1024 % 8 = r.val)
  | ⟨3, _⟩ => exact (by omega : ((((b.val * 2048 + l.val) * 8 + r.val) * 16 + g.val) * 64 + j.val) % 1024 = g.val * 64 + j.val)

/-- Stage %28 is the score of row `q` against row `k` in head `g`. -/
theorem v28_at (b : Fin 2) (l : Fin 2048) (g : Fin 16) (q k : Fin 8) :
    val_main_v28 (F := Ideal) x0 x1 x2 x3 x4 x5 x10 (ix5 b l g q k) = (Attn.score (proj x0 x2 x3 b l) (proj x0 x4 x5 b l) (Attn.bias x1 (x10 ix0) b l) g q) k := by
  rw [val_main_v28_apply, val_main_v20_apply, val_main_v18_apply, val_main_v19_apply, val_main_cst_apply,
    val_main_v27_apply, val_main_v26_apply, val_main_v25_apply, val_main_v24_apply, val_main_v23_apply,
    val_main_v22_apply, val_main_v21_apply, val_main_cst_0_apply]
  show (∑ j : Fin 64, val_main_v13 (F := Ideal) x0 x2 x3 (lidx_main_v18 (ix5 b l g q k) j)
        * val_main_v15 (F := Ideal) x0 x4 x5 (ridx_main_v18 (ix5 b l g q k) j)) * Attn.scale
      + x10 (idx_main_v25 (idx_main_v27 (ix5 b l g q k)))
        * Ideal.log (x1 (idx_main_v24 (idx_main_v27 (ix5 b l g q k))) + Attn.eps)
    = (∑ j : Fin 64, proj x0 x2 x3 b l q (Attn.col g j) * proj x0 x4 x5 b l k (Attn.col g j)) * Attn.scale
      + x10 ix0 * Ideal.log (x1 (ix3 b l k) + Attn.eps)
  refine congrArg₂ (fun s t : EReal => s + t)
    (congrArg (fun s : EReal => s * Attn.scale) (Finset.sum_congr rfl fun j _ => ?_))
    (congrArg₂ (fun s t : EReal => s * t) (congrArg x10 (funext fun a => a.elim0))
      (congrArg (fun t => Ideal.log (x1 t + Attn.eps)) (by idx3)))
  have e1 : lidx_main_v18 (ix5 b l g q k) j = ix5 b l g q j := by idx5
  have e2 : ridx_main_v18 (ix5 b l g q k) j = ix5 b l g k j := by idx5
  rw [e1, e2, v13_at, v15_at]

/-- Stage %31 is the maximum of row `q`'s 8 scores in head `g`. -/
theorem v31_at (b : Fin 2) (l : Fin 2048) (g : Fin 16) (q : Fin 8) :
    val_main_v31 (F := Ideal) x0 x1 x2 x3 x4 x5 x10 (ix4 b l g q) = Attn.rowmax (Attn.score (proj x0 x2 x3 b l) (proj x0 x4 x5 b l) (Attn.bias x1 (x10 ix0) b l) g q) := by
  have hred : S2x2048x16x8x8.Reduces [4] S2x2048x16x8 := by decide
  rw [val_main_v31_apply, val_main_v30_apply, val_main_cst_2_apply]
  unfold val_main_v29
  rw [Host.reduce_eq_fold_single FloatOps.maximumf _ _ reducesTo_S2x2048x16x8x8_S2x2048x16x8_d4 hred h_S_]
  have hf : (val_main_v28 (F := Ideal) x0 x1 x2 x3 x4 x5 x10) ∘ hred.lift (ix4 b l g q) = (Attn.score (proj x0 x2 x3 b l) (proj x0 x4 x5 b l) (Attn.bias x1 (x10 ix0) b l) g q) := by
    funext k
    refine Eq.trans (congrArg (val_main_v28 (F := Ideal) x0 x1 x2 x3 x4 x5 x10) ?_) (v28_at x0 x1 x2 x3 x4 x5 x10 b l g q k)
    funext a
    refine Fin.ext ?_
    match a with
    | ⟨0, _⟩ => rfl
    | ⟨1, _⟩ => rfl
    | ⟨2, _⟩ => rfl
    | ⟨3, _⟩ => rfl
    | ⟨4, _⟩ => rfl
  rw [hf]
  rfl

/-- Stage %39 is the normalised exponential of row `q`'s scores in head `g`. -/
theorem v39_at (b : Fin 2) (l : Fin 2048) (g : Fin 16) (q k : Fin 8) :
    val_main_v39 (F := Ideal) x0 x1 x2 x3 x4 x5 x10 (ix5 b l g q k) = Attn.weight (Attn.score (proj x0 x2 x3 b l) (proj x0 x4 x5 b l) (Attn.bias x1 (x10 ix0) b l) g q) k := by
  have hexp : ∀ k' : Fin 8, val_main_v35 (F := Ideal) x0 x1 x2 x3 x4 x5 x10 (ix5 b l g q k')
      = Ideal.exp ((Attn.score (proj x0 x2 x3 b l) (proj x0 x4 x5 b l) (Attn.bias x1 (x10 ix0) b l) g q) k' - Attn.rowmax (Attn.score (proj x0 x2 x3 b l) (proj x0 x4 x5 b l) (Attn.bias x1 (x10 ix0) b l) g q)) := by
    intro k'
    rw [val_main_v35_apply, val_main_v34_apply, val_main_v33_apply, val_main_v32_apply, v28_at]
    have e : idx_main_v32 (idx_main_v33 (ix5 b l g q k')) = ix4 b l g q := by idx4
    rw [e, v31_at]
    rfl
  rw [val_main_v39_apply, val_main_v38_apply, val_main_v37_apply, val_main_v36_apply, val_main_cst_3_apply, hexp]
  show Ideal.div (Ideal.exp ((Attn.score (proj x0 x2 x3 b l) (proj x0 x4 x5 b l) (Attn.bias x1 (x10 ix0) b l) g q) k - Attn.rowmax (Attn.score (proj x0 x2 x3 b l) (proj x0 x4 x5 b l) (Attn.bias x1 (x10 ix0) b l) g q)))
      (Ideal.ofBits .f32 0x00000000#32 + ∑ k' : Fin 8, val_main_v35 (F := Ideal) x0 x1 x2 x3 x4 x5 x10
        (idx_main_v36 (idx_main_v37 (idx_main_v38 (ix5 b l g q k))) k'))
    = Ideal.div (Ideal.exp ((Attn.score (proj x0 x2 x3 b l) (proj x0 x4 x5 b l) (Attn.bias x1 (x10 ix0) b l) g q) k - Attn.rowmax (Attn.score (proj x0 x2 x3 b l) (proj x0 x4 x5 b l) (Attn.bias x1 (x10 ix0) b l) g q)))
      (∑ k' : Fin 8, Ideal.exp ((Attn.score (proj x0 x2 x3 b l) (proj x0 x4 x5 b l) (Attn.bias x1 (x10 ix0) b l) g q) k' - Attn.rowmax (Attn.score (proj x0 x2 x3 b l) (proj x0 x4 x5 b l) (Attn.bias x1 (x10 ix0) b l) g q)))
  rw [Ideal.ofBits_zero_f32, zero_add]
  refine congrArg (Ideal.div _) (Finset.sum_congr rfl fun k' _ => ?_)
  exact Eq.trans (congrArg (val_main_v35 (F := Ideal) x0 x1 x2 x3 x4 x5 x10) (by idx5)) (hexp k')

/-- Stage %40 is head `g`'s output row `q`: the weighted sum of V's rows. -/
theorem v40_at (b : Fin 2) (l : Fin 2048) (g : Fin 16) (q : Fin 8) (j : Fin 64) :
    val_main_v40 (F := Ideal) x0 x1 x2 x3 x4 x5 x6 x7 x10 (ix5 b l g q j) = Attn.mix (proj x0 x2 x3 b l) (proj x0 x4 x5 b l) (proj x0 x6 x7 b l) (Attn.bias x1 (x10 ix0) b l) g q j := by
  rw [val_main_v40_apply]
  show (∑ k : Fin 8, val_main_v39 (F := Ideal) x0 x1 x2 x3 x4 x5 x10 (lidx_main_v40 (ix5 b l g q j) k)
        * val_main_v17 (F := Ideal) x0 x6 x7 (ridx_main_v40 (ix5 b l g q j) k))
    = ∑ k : Fin 8, Attn.weight (Attn.score (proj x0 x2 x3 b l) (proj x0 x4 x5 b l) (Attn.bias x1 (x10 ix0) b l) g q) k * proj x0 x6 x7 b l k (Attn.col g j)
  refine Finset.sum_congr rfl fun k _ => ?_
  have e1 : lidx_main_v40 (ix5 b l g q j) k = ix5 b l g q k := by idx5
  have e2 : ridx_main_v40 (ix5 b l g q j) k = ix5 b l g k j := by idx5
  rw [e1, e2, v39_at, v17_at]

/-- Stage %42: the exchange back and the reshape to 1024 columns read head `d / 64`, place `d % 64` at column `d`. -/
theorem v42_at (b : Fin 2) (l : Fin 2048) (q : Fin 8) (d : Fin 1024) :
    val_main_v42 (F := Ideal) x0 x1 x2 x3 x4 x5 x6 x7 x10 (ix4 b l q d) = Attn.merged (proj x0 x2 x3 b l) (proj x0 x4 x5 b l) (proj x0 x6 x7 b l) (Attn.bias x1 (x10 ix0) b l) q d := by
  rw [val_main_v42_apply, val_main_v41_apply]
  refine Eq.trans (congrArg (val_main_v40 (F := Ideal) x0 x1 x2 x3 x4 x5 x6 x7 x10) ?_)
    (v40_at x0 x1 x2 x3 x4 x5 x6 x7 x10 b l (Attn.headOf d) q (Attn.within d))
  funext a
  refine Fin.ext ?_
  have hb := b.isLt; have hl := l.isLt; have hq := q.isLt; have hd := d.isLt
  match a with
  | ⟨0, _⟩ => exact (by omega : (((b.val * 2048 + l.val) * 8 + q.val) * 1024 + d.val) / 16777216 = b.val)
  | ⟨1, _⟩ => exact (by omega : (((b.val * 2048 + l.val) * 8 + q.val) * 1024 + d.val) / 8192 % 2048 = l.val)
  | ⟨2, _⟩ => exact (by omega : (((b.val * 2048 + l.val) * 8 + q.val) * 1024 + d.val) / 64 % 16 = d.val / 64)
  | ⟨3, _⟩ => exact (by omega : (((b.val * 2048 + l.val) * 8 + q.val) * 1024 + d.val) / 1024 % 8 = q.val)
  | ⟨4, _⟩ => exact (by omega : (((b.val * 2048 + l.val) * 8 + q.val) * 1024 + d.val) % 64 = d.val % 64)

/-- The result at (b, l, q, e) is the fourth linear layer on the merged heads' row `q`. -/
theorem v46_at (b : Fin 2) (l : Fin 2048) (q : Fin 8) (e : Fin 1024) :
    val_main_v46 (F := Ideal) x0 x1 x2 x3 x4 x5 x6 x7 x8 x9 x10 (ix4 b l q e)
      = Attn.lin (mat x8) (vec x9) (Attn.merged (proj x0 x2 x3 b l) (proj x0 x4 x5 b l) (proj x0 x6 x7 b l) (Attn.bias x1 (x10 ix0) b l) q) e := by
  rw [val_main_v46_apply, val_main_v43_apply, val_main_v45_apply, val_main_v44_apply]
  show (∑ k : Fin 1024, val_main_v42 (F := Ideal) x0 x1 x2 x3 x4 x5 x6 x7 x10 (lidx_main_v43 (ix4 b l q e) k) * x8 (ridx_main_v43 (ix4 b l q e) k))
      + x9 (idx_main_v44 (idx_main_v45 (ix4 b l q e)))
    = (∑ d : Fin 1024, Attn.merged (proj x0 x2 x3 b l) (proj x0 x4 x5 b l) (proj x0 x6 x7 b l) (Attn.bias x1 (x10 ix0) b l) q d * x8 (ix2 e d)) + x9 (ix1 e)
  refine congrArg₂ (fun s t : EReal => s + t) (Finset.sum_congr rfl fun k _ => ?_) (congrArg x9 (by idx1))
  have e1 : lidx_main_v43 (ix4 b l q e) k = ix4 b l q k := by idx4
  have e2 : ridx_main_v43 (ix4 b l q e) k = ix2 e k := by idx2
  rw [e1, e2, v42_at]

end

/-- The reference program's result is the attention of the specification, at every index. -/
theorem result_eq
    (x0 : (⟨S2x2048x8x1024, .f32⟩ : BufTy).Contents (Elt Ideal)) (x1 : (⟨S2x2048x8, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S_, .f32⟩ : BufTy).Contents (Elt Ideal)) :
    Cert.ReferenceIdeal.Read.val_main_v46 (F := Ideal) x0 x1 x2 x3 x4 x5 x6 x7 x8 x9 x10
      = Cert.Attn.whole x0 x1 x2 x3 x4 x5 x6 x7 x8 x9 (x10 Idealize.ShloMosaic.ValueIdx.ix0) := by
  funext i
  obtain ⟨b, l, q, e, rfl⟩ : ∃ (b : Fin 2) (l : Fin 2048) (q : Fin 8) (e : Fin 1024), i = ix4 b l q e :=
    ⟨_, _, _, _, eq_ix4 i⟩
  exact v46_at x0 x1 x2 x3 x4 x5 x6 x7 x8 x9 x10 b l q e

end Cert.ReferenceIdeal.RefValue

end
-- ==== Proof.lean ====
/-
  The two programs compute one function.

  Both take h : [2, 2048, 8, 1024], probs : [2, 2048, 8], four weight matrices with their biases, and a scale, and both
  return, at (b, l, k, e), the one-position function `Attn.attn` of position (b, l) (Attn.lean): three linear layers on the
  position's 8 rows, per head the 8 × 8 scores `Q·Kᵀ/8 + scale · log (probs + ε)`, each row of scores normalised by its
  exponentials, the weighted sum of the V rows, the heads side by side, a fourth linear layer.  The reference does this on
  whole arrays with a head axis (RefIsAttn.lean reads its operations one at a time); the kernel does it tile by tile — 64
  positions at a time, the sixteen heads one after the other — and its 64 blocks tile the result (Arrange, Head, Proj, Tile,
  Blocks).  Over the extended reals the two are the same operations in the same order on the same numbers: a change of
  float format is the identity, a matrix product is a finite sum whichever way it is tiled, and the three literals (1/8,
  −∞, ε) are the same words on both sides.  No law of arithmetic beyond the definitions is used, so the finiteness of the
  inputs is never opened.  The idealized kernel is the kernel's own text read over the extended reals (the ledger of
  rewrites is empty), so `preserves` has nothing to state.
-/
import proofs.«150539_j11776800325696_1_alg».proof.Defs
import proofs.«150539_j11776800325696_1_alg».proof.Proof.Gen.Kernel
import proofs.«150539_j11776800325696_1_alg».proof.Proof.Gen.Kernel.Skeleton
import proofs.«150539_j11776800325696_1_alg».proof.Proof.Gen.Kernel.Launch
import proofs.«150539_j11776800325696_1_alg».proof.Proof.Gen.Kernel.Points
import proofs.«150539_j11776800325696_1_alg».proof.Proof.Gen.Kernel.Frame
import proofs.«150539_j11776800325696_1_alg».proof.Proof.Gen.KernelIdeal
import proofs.«150539_j11776800325696_1_alg».proof.Proof.Gen.KernelIdeal.Skeleton
import proofs.«150539_j11776800325696_1_alg».proof.Proof.Gen.KernelIdeal.Launch
import proofs.«150539_j11776800325696_1_alg».proof.Proof.Gen.KernelIdeal.Points
import proofs.«150539_j11776800325696_1_alg».proof.Proof.Gen.KernelIdeal.Frame
import proofs.«150539_j11776800325696_1_alg».proof.Proof.Gen.ReferenceIdeal
import proofs.«150539_j11776800325696_1_alg».proof.Proof.Gen.KernelIdeal.Value
import proofs.«150539_j11776800325696_1_alg».proof.Proof.Gen.ReferenceIdeal.Run
import proofs.«150539_j11776800325696_1_alg».proof.Proof.Gen.ReferenceIdeal.Read
import proofs.«150539_j11776800325696_1_alg».proof.Proof.Gen.Pre_finite_inputs
import proofs.«150539_j11776800325696_1_alg».proof.Proof.Blocks
import proofs.«150539_j11776800325696_1_alg».proof.Proof.RefIsAttn
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference has no kernel: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories agreeing on the arguments both programs end with the result array at `Attn.whole` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v46_eq, Cert.ReferenceIdeal.RefValue.result_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
